-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x1700000 : Shape := ⟨2, ![2, 1700000]⟩
abbrev S1700000 : Shape := ⟨1, ![1700000]⟩
abbrev S50000 : Shape := ⟨1, ![50000]⟩
abbrev S1x128 : Shape := ⟨2, ![1, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1700000 : S_.BroadcastsInDim S1700000 (![] : Fin 0 → Fin S1700000.rank)
  reducesTo_S1700000_S_d0 : S1700000.ReducesTo [0] S_
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S1 .f32) (main_arg10 : FVec F S128x128 .f32) (main_arg11 : FVec F S128 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x1 .f32) (main_arg9 : FVec F S1 .f32) (main_arg10 : FVec F S128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg8
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x1 .f32) (main_arg1 : IVec S2x1700000 32) (main_arg2 : FVec F S1700000 .f32) (main_arg3 : IVec S50000 32) (main_arg4 : FVec F S1x128 .f32) (main_arg5 : FVec F S128 .f32) (main_arg6 : FVec F S128x128 .f32) (main_arg7 : FVec F S128 .f32) (main_arg8 : FVec F S128x1 .f32) (main_arg9 : FVec F S1 .f32) (main_arg10 : FVec F S128x128 .f32) (main_arg11 : FVec F S128 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1700000 .f32 := Host.absf main_arg2
  let main_cst_0 : FVec F S_ .f32 := constant S_ .f32 0x7F800000#32
  let main_v5 : FVec F S1700000 .f32 := broadcastInDim S1700000 ![] bcast_S_S1700000 main_cst_0
  let main_v6 : IVec S1700000 1 := cmpf .olt main_v4 main_v5
  let main_c_1 : IVec S_ 1 := constantI S_ 1 1#1
  let main_v7 : IVec S_ 1 := (fun x v => Host.reduce IntOp.andi x v reducesTo_S1700000_S_d0 h_S_) main_v6 main_c_1
  let main_v8 : IVec S_ 1 := andi main_v3 main_v7
  let main_v9 : FVec F S1x128 .f32 := Host.absf main_arg4
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x1 : Shape := ⟨2, ![100000, 1]⟩
abbrev S2x1700000 : Shape := ⟨2, ![2, 1700000]⟩
abbrev S1700000 : Shape := ⟨1, ![1700000]⟩
abbrev S50000 : Shape := ⟨1, ![50000]⟩
abbrev S1x128 : Shape := ⟨2, ![1, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1700000 : Shape := ⟨2, ![1, 1700000]⟩
abbrev S_ : Shape := ⟨0, ![]⟩
abbrev S100000 : Shape := ⟨1, ![100000]⟩
abbrev S1700000x1 : Shape := ⟨2, ![1700000, 1]⟩
abbrev S100000x128 : Shape := ⟨2, ![100000, 128]⟩
abbrev S5000x1 : Shape := ⟨2, ![5000, 1]⟩
abbrev S5000x128 : Shape := ⟨2, ![5000, 128]⟩
abbrev S1700000x128 : Shape := ⟨2, ![1700000, 128]⟩
abbrev S50000x1 : Shape := ⟨2, ![50000, 1]⟩
abbrev S50000x128 : Shape := ⟨2, ![50000, 128]⟩
abbrev S1x1 : Shape := ⟨2, ![1, 1]⟩

abbrev nBuf : Space → Nat
  | .hbm => 128
  | .vmem => 36
  | .smem => 0
  | _ => 0

abbrev bufTy : (tb : Table) → Fin (tcTables nBuf tb) → BufTy
  | .hbm, ⟨0, _⟩ => ⟨S100000x1, .f32⟩
  | .hbm, ⟨1, _⟩ => ⟨S2x1700000, .i32⟩
  | .hbm, ⟨2, _⟩ => ⟨S1700000, .f32⟩
  | .hbm, ⟨3, _⟩ => ⟨S50000, .i32⟩
  | .hbm, ⟨4, _⟩ => ⟨S1x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S128x128, .f32⟩
  | .hbm, ⟨11, _⟩ => ⟨S128, .f32⟩
  | .hbm, ⟨12, _⟩ => ⟨S1x1700000, .i32⟩
  | .hbm, ⟨13, _⟩ => ⟨S1700000, .i32⟩
  | .hbm, ⟨14, _⟩ => ⟨S1x1700000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S1700000x1, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S_, .i32⟩
  | .hbm, ⟨68, _⟩ => ⟨S50000, .i32⟩
  | .hbm, ⟨69, _⟩ => ⟨S50000, .i1⟩
  | .hbm, ⟨70, _⟩ => ⟨S_, .i32⟩
  | .hbm, ⟨71, _⟩ => ⟨S50000, .i32⟩
  | .hbm, ⟨72, _⟩ => ⟨S50000, .i32⟩
  | .hbm, ⟨73, _⟩ => ⟨S50000, .i32⟩
  | .hbm, ⟨74, _⟩ => ⟨S50000x1, .i32⟩
  | .hbm, ⟨75, _⟩ => ⟨S50000x128, .f32⟩
  | .hbm, ⟨76, _⟩ => ⟨S128x128, .f32⟩
  | .hbm, ⟨77, _⟩ => ⟨S1x128, .f32⟩
  | .hbm, ⟨78, _⟩ => ⟨S50000x128, .f32⟩
  | .hbm, ⟨79, _⟩ => ⟨S_, .f32⟩
  | .hbm, ⟨80, _⟩ => ⟨S100000x128, .f32⟩
  | .hbm, ⟨81, _⟩ => ⟨S_, .i32⟩
  | .hbm, ⟨82, _⟩ => ⟨S50000, .i32⟩
  | .hbm, ⟨83, _⟩ => ⟨S50000, .i1⟩
  | .hbm, ⟨84, _⟩ => ⟨S_, .i32⟩
  | .hbm, ⟨85, _⟩ => ⟨S50000, .i32⟩
  | .hbm, ⟨86, _⟩ => ⟨S50000, .i32⟩
  | .hbm, ⟨87, _⟩ => ⟨S50000, .i32⟩
  | .hbm, ⟨88, _⟩ => ⟨S50000x1, .i32⟩
  | .hbm, ⟨89, _⟩ => ⟨S100000x128, .f32⟩
  | .hbm, ⟨90, _⟩ => ⟨S100000x128, .f32⟩
  | .hbm, ⟨91, _⟩ => ⟨S1700000x1, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x128, .f32⟩
  | .hbm, ⟨101, _⟩ => ⟨S1700000x128, .f32⟩
  | .hbm, ⟨102, _⟩ => ⟨S1700000x128, .f32⟩
  | .hbm, ⟨103, _⟩ => ⟨S_, .f32⟩
  | .hbm, ⟨104, _⟩ => ⟨S100000x128, .f32⟩
  | .hbm, ⟨105, _⟩ => ⟨S1700000x1, .i32⟩
  | .hbm, ⟨106, _⟩ => ⟨S100000x128, .f32⟩
  | .hbm, ⟨107, _⟩ => ⟨S1x128, .f32⟩
  | .hbm, ⟨108, _⟩ => ⟨S100000x128, .f32⟩
  | .hbm, ⟨109, _⟩ => ⟨S100000x1, .f32⟩
  | .hbm, ⟨110, _⟩ => ⟨S1700000x1, .f32⟩
  | .hbm, ⟨111, _⟩ => ⟨S_, .i32⟩
  | .hbm, ⟨112, _⟩ => ⟨S1700000, .i32⟩
  | .hbm, ⟨113, _⟩ => ⟨S1700000, .i1⟩
  | .hbm, ⟨114, _⟩ => ⟨S_, .i32⟩
  | .hbm, ⟨115, _⟩ => ⟨S1700000, .i32⟩
  | .hbm, ⟨116, _⟩ => ⟨S1700000, .i32⟩
  | .hbm, ⟨117, _⟩ => ⟨S1700000, .i32⟩
  | .hbm, ⟨118, _⟩ => ⟨S1700000x1, .i32⟩
  | .hbm, ⟨119, _⟩ => ⟨S1700000x1, .f32⟩
  | .hbm, ⟨120, _⟩ => ⟨S1700000x1, .f32⟩
  | .hbm, ⟨121, _⟩ => ⟨S_, .f32⟩
  | .hbm, ⟨122, _⟩ => ⟨S100000x1, .f32⟩
  | .hbm, ⟨123, _⟩ => ⟨S1700000x1, .i32⟩
  | .hbm, ⟨124, _⟩ => ⟨S100000x1, .f32⟩
  | .hbm, ⟨125, _⟩ => ⟨S1x1, .f32⟩
  | .hbm, ⟨126, _⟩ => ⟨S100000x1, .f32⟩
  | .hbm, ⟨127, _⟩ => ⟨S100000, .f32⟩
  | .local _ .vmem, ⟨0, _⟩ => ⟨S5000x1, .f32⟩
  | .local _ .vmem, ⟨1, _⟩ => ⟨S5000x1, .f32⟩
  | .local _ .vmem, ⟨2, _⟩ => ⟨S1x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x1, .f32⟩
  | .local _ .vmem, ⟨29, _⟩ => ⟨S5000x1, .f32⟩
  | .local _ .vmem, ⟨30, _⟩ => ⟨S5000x1, .f32⟩
  | .local _ .vmem, ⟨31, _⟩ => ⟨S5000x1, .f32⟩
  | .local _ .vmem, ⟨32, _⟩ => ⟨S5000x1, .f32⟩
  | .local _ .vmem, ⟨33, _⟩ => ⟨S1x1, .f32⟩
  | .local _ .vmem, ⟨34, _⟩ => ⟨S5000x1, .f32⟩
  | .local _ .vmem, ⟨35, _⟩ => ⟨S5000x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_8 : Ref sig .tc := ⟨.hbm, 67, rfl⟩
abbrev main_v43 : Ref sig .tc := ⟨.hbm, 68, rfl⟩
abbrev main_v44 : Ref sig .tc := ⟨.hbm, 69, rfl⟩
abbrev main_c_9 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_c_11 : Ref sig .tc := ⟨.hbm, 81, rfl⟩
abbrev main_v54 : Ref sig .tc := ⟨.hbm, 82, rfl⟩
abbrev main_v55 : Ref sig .tc := ⟨.hbm, 83, rfl⟩
abbrev main_c_12 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_13 : Ref sig .tc := ⟨.hbm, 92, rfl⟩
abbrev main_v63 : Ref sig .tc := ⟨.hbm, 93, rfl⟩
abbrev main_v64 : Ref sig .tc := ⟨.hbm, 94, rfl⟩
abbrev main_c_14 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_15 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_16 : Ref sig .tc := ⟨.hbm, 111, rfl⟩
abbrev main_v79 : Ref sig .tc := ⟨.hbm, 112, rfl⟩
abbrev main_v80 : Ref sig .tc := ⟨.hbm, 113, rfl⟩
abbrev main_c_17 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_18 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg2_1 : Ref sig .tc := ⟨.vmem, 30, rfl⟩
abbrev cc6_stg0_0 : Ref sig .tc := ⟨.vmem, 31, rfl⟩
abbrev cc6_stg0_1 : Ref sig .tc := ⟨.vmem, 32, rfl⟩
abbrev cc6_stg1_0 : Ref sig .tc := ⟨.vmem, 33, rfl⟩
abbrev cc6_stg2_0 : Ref sig .tc := ⟨.vmem, 34, rfl⟩
abbrev cc6_stg2_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem2_1 : DmaSem sig := 30
abbrev cc6_sem0_0 : DmaSem sig := 31
abbrev cc6_sem0_1 : DmaSem sig := 32
abbrev cc6_sem1_0 : DmaSem sig := 33
abbrev cc6_sem2_0 : DmaSem sig := 34
abbrev cc6_sem2_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x1 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x1700000_S1x1700000_0_0 : S2x1700000.Slices ![0, 0] S1x1700000
  shapeCasts_S1x1700000_S1700000 : S1x1700000.ShapeCasts S1700000
  slices_S2x1700000_S1x1700000_1_0 : S2x1700000.Slices ![1, 0] S1x1700000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x1_S5000x1_0_0 : ∀ a, (![0, 0] : Fin 2 → Nat) a + S5000x1.size a ≤ S5000x1.size a
  h_S5000x1 : 0 < S5000x1.numel
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  shapeCasts_S1x128_S1x128 : S1x128.ShapeCasts S1x128
  broadcasts_S1x128_S5000x128 : S1x128.Broadcasts S5000x128
  bcast_S_S50000 : S_.BroadcastsInDim S50000 (![] : Fin 0 → Fin S50000.rank)
  bcast_S50000_S50000x1_0 : S50000.BroadcastsInDim S50000x1 (![0] : Fin 1 → Fin S50000x1.rank)
  transposes_S128x128_S128x128_1_0 : S128x128.Transposes [1, 0] S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1_S128x1_0_0 : ∀ a, (![0, 0] : Fin 2 → Nat) a + S128x1.size a ≤ S128x1.size a
  h_S128x1 : 0 < S128x1.numel
  bcast_S_S100000x1 : S_.BroadcastsInDim S100000x1 (![] : Fin 0 → Fin S100000x1.rank)
  shapeCasts_S1_S1x1 : S1.ShapeCasts S1x1
  shapeCasts_S5000x1_S5000x1 : S5000x1.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x1_S1x128_S5000x128_1_0_0_1_n_n_wf : DotDims.WF S5000x1 S1x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x128_S50000x1_S50000x128_1_0_n_n_0_1_1128_wf : GatherDims.WF S100000x128 S50000x1 S50000x128 [1] [0] [] [0] [] 1 ![1, 128]
  dot_S5000x128_S128x128_S5000x128_1_0_0_1_n_n_wf : DotDims.WF S5000x128 S128x128 S5000x128 [1] [0] [0] [1] [] []
  scatter_S100000x128_S50000x1_S50000x128_1_0_0_1_wf : ScatterDims.WF S100000x128 S50000x1 S50000x128 [1] [0] [0] 1
  dot_S5000x128_S128x1_S5000x1_1_0_0_1_n_n_wf : DotDims.WF S5000x128 S128x1 S5000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S100000x1.size a
  hwx0_0 : ∀ i : grid0.Coords, EltTy.bits .f32 = 32 ∨ (Rect.block (s := S100000x1) S5000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x1.size a ≤ S128x1.size a
  hwx5_1 : ∀ i : grid5.Coords, EltTy.bits .f32 = 32 ∨ (Rect.block (s := S128x1) S128x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x1.size a ≤ S100000x1.size a
  hwx6_0 : ∀ i : grid6.Coords, EltTy.bits .f32 = 32 ∨ (Rect.block (s := S100000x1) S5000x1.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x1.size a ≤ S1x1.size a
  hwx6_1 : ∀ i : grid6.Coords, EltTy.bits .f32 = 32 ∨ (Rect.block (s := S1x1) S1x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S100000x1.size a
  hwx6_2 : ∀ i : grid6.Coords, EltTy.bits .f32 = 32 ∨ (Rect.block (s := S100000x1) S5000x1.size (cc6_transform_2 i) (hinb6_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x1_S1x128_S5000x128_1_0_0_1_n_n : DotDims S5000x1 S1x128 S5000x128 where
  lhsContracting := [1]
  rhsContracting := [0]
  lhsNonContracting := [0]
  rhsNonContracting := [1]
  lhsBatch := []
  rhsBatch := []
  wf := dot_S5000x1_S1x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x128_S50000x1_S50000x128_1_0_n_n_0_1_1128 : GatherDims S100000x128 S50000x1 S50000x128 where
  offsetDims := [1]
  collapsedSliceDims := [0]
  operandBatchingDims := []
  startIndicesBatchingDims := []
  startIndexMap := [0]
  indexVectorDim := 1
  sliceSizes := ![1, 128]
  wf := gather_S100000x128_S50000x1_S50000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000x128_S50000x1_S50000x128_1_0_0_1 : ScatterDims S100000x128 S50000x1 S50000x128 where
  updateWindowDims := [1]
  insertedWindowDims := [0]
  scatterDimsToOperandDims := [0]
  indexVectorDim := 1
  wf := scatter_S100000x128_S50000x1_S50000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v60) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v74) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v75) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v76) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v76) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S128x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x1.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v89) S5000x1.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v90) S1x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v91) S5000x1.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x1 : Shape := ⟨2, ![100000, 1]⟩
abbrev S2x1700000 : Shape := ⟨2, ![2, 1700000]⟩
abbrev S1700000 : Shape := ⟨1, ![1700000]⟩
abbrev S50000 : Shape := ⟨1, ![50000]⟩
abbrev S1x128 : Shape := ⟨2, ![1, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1700000 : Shape := ⟨2, ![1, 1700000]⟩
abbrev S_ : Shape := ⟨0, ![]⟩
abbrev S100000 : Shape := ⟨1, ![100000]⟩
abbrev S1700000x1 : Shape := ⟨2, ![1700000, 1]⟩
abbrev S100000x128 : Shape := ⟨2, ![100000, 128]⟩
abbrev S1700000x128 : Shape := ⟨2, ![1700000, 128]⟩
abbrev S50000x1 : Shape := ⟨2, ![50000, 1]⟩
abbrev S50000x128 : Shape := ⟨2, ![50000, 128]⟩
abbrev S1x1 : Shape := ⟨2, ![1, 1]⟩

abbrev nBuf : Space → Nat
  | .hbm => 142
  | .vmem => 0
  | .smem => 0
  | _ => 0

abbrev hbmTy0_0 (i : Nat) : BufTy := match i % 128 with
  | 0 => ⟨S100000x1, .f32⟩
  | 1 => ⟨S2x1700000, .i32⟩
  | 2 => ⟨S1700000, .f32⟩
  | 3 => ⟨S50000, .i32⟩
  | 4 => ⟨S1x128, .f32⟩
  | 5 => ⟨S128, .f32⟩
  | 6 => ⟨S128x128, .f32⟩
  | 7 => ⟨S128, .f32⟩
  | 8 => ⟨S128x1, .f32⟩
  | 9 => ⟨S1, .f32⟩
  | 10 => ⟨S128x128, .f32⟩
  | 11 => ⟨S128, .f32⟩
  | 12 => ⟨S1x1700000, .i32⟩
  | 13 => ⟨S1700000, .i32⟩
  | 14 => ⟨S1x1700000, .i32⟩
  | 15 => ⟨S1700000, .i32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S100000x128, .f32⟩
  | 49 => ⟨S1700000x1, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x128, .f32⟩
  | 60 => ⟨S1700000x128, .f32⟩
  | 61 => ⟨S_, .f32⟩
  | 62 => ⟨S100000x128, .f32⟩
  | 63 => ⟨S1700000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S_, .i32⟩
  | 72 => ⟨S50000, .i32⟩
  | 73 => ⟨S50000, .i1⟩
  | 74 => ⟨S_, .i32⟩
  | 75 => ⟨S50000, .i32⟩
  | 76 => ⟨S50000, .i32⟩
  | 77 => ⟨S50000, .i32⟩
  | 78 => ⟨S50000x1, .i32⟩
  | 79 => ⟨S50000x128, .f32⟩
  | 80 => ⟨S128x128, .f32⟩
  | 81 => ⟨S50000x128, .f32⟩
  | 82 => ⟨S1x128, .f32⟩
  | 83 => ⟨S50000x128, .f32⟩
  | 84 => ⟨S50000x128, .f32⟩
  | 85 => ⟨S_, .f32⟩
  | 86 => ⟨S50000x128, .f32⟩
  | 87 => ⟨S50000x128, .f32⟩
  | 88 => ⟨S_, .f32⟩
  | 89 => ⟨S100000x128, .f32⟩
  | 90 => ⟨S_, .i32⟩
  | 91 => ⟨S50000, .i32⟩
  | 92 => ⟨S50000, .i1⟩
  | 93 => ⟨S_, .i32⟩
  | 94 => ⟨S50000, .i32⟩
  | 95 => ⟨S50000, .i32⟩
  | 96 => ⟨S50000, .i32⟩
  | 97 => ⟨S50000x1, .i32⟩
  | 98 => ⟨S100000x128, .f32⟩
  | 99 => ⟨S100000x128, .f32⟩
  | 100 => ⟨S1700000x1, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000x128, .f32⟩
  | 110 => ⟨S1700000x128, .f32⟩
  | 111 => ⟨S1700000x128, .f32⟩
  | 112 => ⟨S_, .f32⟩
  | 113 => ⟨S100000x128, .f32⟩
  | 114 => ⟨S1700000x1, .i32⟩
  | 115 => ⟨S100000x128, .f32⟩
  | 116 => ⟨S1x128, .f32⟩
  | 117 => ⟨S100000x128, .f32⟩
  | 118 => ⟨S100000x128, .f32⟩
  | 119 => ⟨S_, .f32⟩
  | 120 => ⟨S100000x128, .f32⟩
  | 121 => ⟨S100000x128, .f32⟩
  | 122 => ⟨S100000x1, .f32⟩
  | 123 => ⟨S1700000x1, .f32⟩
  | 124 => ⟨S_, .i32⟩
  | 125 => ⟨S1700000, .i32⟩
  | 126 => ⟨S1700000, .i1⟩
  | 127 => ⟨S_, .i32⟩
  | _ => ⟨S100000x1, .f32⟩

abbrev hbmTy0_1 (i : Nat) : BufTy := match i % 128 with
  | 0 => ⟨S1700000, .i32⟩
  | 1 => ⟨S1700000, .i32⟩
  | 2 => ⟨S1700000, .i32⟩
  | 3 => ⟨S1700000x1, .i32⟩
  | 4 => ⟨S1700000x1, .f32⟩
  | 5 => ⟨S1700000x1, .f32⟩
  | 6 => ⟨S_, .f32⟩
  | 7 => ⟨S100000x1, .f32⟩
  | 8 => ⟨S1700000x1, .i32⟩
  | 9 => ⟨S100000x1, .f32⟩
  | 10 => ⟨S1x1, .f32⟩
  | 11 => ⟨S100000x1, .f32⟩
  | 12 => ⟨S100000x1, .f32⟩
  | 13 => ⟨S100000, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_call1_cst : Ref sig .tc := ⟨.hbm, 68, rfl⟩
abbrev main_call1_v0 : Ref sig .tc := ⟨.hbm, 69, rfl⟩
abbrev main_v44 : Ref sig .tc := ⟨.hbm, 70, rfl⟩
abbrev main_c_8 : Ref sig .tc := ⟨.hbm, 71, rfl⟩
abbrev main_v45 : Ref sig .tc := ⟨.hbm, 72, rfl⟩
abbrev main_v46 : Ref sig .tc := ⟨.hbm, 73, rfl⟩
abbrev main_c_9 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_call2_cst : Ref sig .tc := ⟨.hbm, 85, rfl⟩
abbrev main_call2_v0 : Ref sig .tc := ⟨.hbm, 86, rfl⟩
abbrev main_v57 : Ref sig .tc := ⟨.hbm, 87, rfl⟩
abbrev main_cst_10 : Ref sig .tc := ⟨.hbm, 88, rfl⟩
abbrev main_v58 : Ref sig .tc := ⟨.hbm, 89, rfl⟩
abbrev main_c_11 : Ref sig .tc := ⟨.hbm, 90, rfl⟩
abbrev main_v59 : Ref sig .tc := ⟨.hbm, 91, rfl⟩
abbrev main_v60 : Ref sig .tc := ⟨.hbm, 92, rfl⟩
abbrev main_c_12 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_c_13 : Ref sig .tc := ⟨.hbm, 101, rfl⟩
abbrev main_v68 : Ref sig .tc := ⟨.hbm, 102, rfl⟩
abbrev main_v69 : Ref sig .tc := ⟨.hbm, 103, rfl⟩
abbrev main_c_14 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_15 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_call3_cst : Ref sig .tc := ⟨.hbm, 119, rfl⟩
abbrev main_call3_v0 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_c_16 : Ref sig .tc := ⟨.hbm, 124, rfl⟩
abbrev main_v86 : Ref sig .tc := ⟨.hbm, 125, rfl⟩
abbrev main_v87 : Ref sig .tc := ⟨.hbm, 126, rfl⟩
abbrev main_c_17 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_18 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩

abbrev nD : Nat := 1
abbrev τ : Topo := Topo.v7x

variable {F : FTy → Type} [FloatOps F]

class Facts₀ : Prop where
  slices_S2x1700000_S1x1700000_0_0 : S2x1700000.Slices ![0, 0] S1x1700000
  shapeCasts_S1x1700000_S1700000 : S1x1700000.ShapeCasts S1700000
  slices_S2x1700000_S1x1700000_1_0 : S2x1700000.Slices ![1, 0] S1x1700000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S50000 : S_.BroadcastsInDim S50000 (![] : Fin 0 → Fin S50000.rank)
  bcast_S50000_S50000x1_0 : S50000.BroadcastsInDim S50000x1 (![0] : Fin 1 → Fin S50000x1.rank)
  transposes_S128x128_S128x128_1_0 : S128x128.Transposes [1, 0] S128x128
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x1_S1x128_S100000x128_1_0_0_1_n_n_wf : DotDims.WF S100000x1 S1x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x128_S50000x1_S50000x128_1_0_n_n_0_1_1128_wf : GatherDims.WF S100000x128 S50000x1 S50000x128 [1] [0] [] [0] [] 1 ![1, 128]
  dot_S50000x128_S128x128_S50000x128_1_0_0_1_n_n_wf : DotDims.WF S50000x128 S128x128 S50000x128 [1] [0] [0] [1] [] []
  scatter_S100000x128_S50000x1_S50000x128_1_0_0_1_wf : ScatterDims.WF S100000x128 S50000x1 S50000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x1_S1x128_S100000x128_1_0_0_1_n_n : DotDims S100000x1 S1x128 S100000x128 where
  lhsContracting := [1]
  rhsContracting := [0]
  lhsNonContracting := [0]
  rhsNonContracting := [1]
  lhsBatch := []
  rhsBatch := []
  wf := dot_S100000x1_S1x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x128_S50000x1_S50000x128_1_0_n_n_0_1_1128 : GatherDims S100000x128 S50000x1 S50000x128 where
  offsetDims := [1]
  collapsedSliceDims := [0]
  operandBatchingDims := []
  startIndicesBatchingDims := []
  startIndexMap := [0]
  indexVectorDim := 1
  sliceSizes := ![1, 128]
  wf := gather_S100000x128_S50000x1_S50000x128_1_0_n_n_0_1_1128_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S100000x128_S50000x1_S50000x128_1_0_0_1 : ScatterDims S100000x128 S50000x1 S50000x128 where
  updateWindowDims := [1]
  insertedWindowDims := [0]
  scatterDimsToOperandDims := [0]
  indexVectorDim := 1
  wf := scatter_S100000x128_S50000x1_S50000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.KernelRun.lean ====
/-
  The kernel program's run with its RESULT named.

  @main is sixteen segments: stretches of host operations and the seven tiled regions between them. The buffers a
  TensorCore holds at each segment boundary are a fold from the launch memory (`W0 … W16` of the generated frame): a host
  stretch applies its operations, a region replaces its arrays by what its write-backs leave. Every weakly fair execution
  terminates, and at the end every unscoped buffer holds the last boundary's contents `W16`. Read at the result buffer
  that says what the program returns; read at an argument buffer, that the argument is as launched.
-/
import proofs.«100206_j64836826301092_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer then holds the last boundary's
    contents at it, and each argument array is as launched. -/
theorem run_result : θ_run defs (onTc (τ := τ) (main (F := F))) ⟨m, fun _ => 0, ρ⟩ (fun r => ∀ c : Dev nD,
      r.2.mem ((c.tc : Thread nD τ).loc main_v92) = W16 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v92 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c)⟩)

end Cert.KernelIdeal.RunValue

end
-- ==== Proof.LibDotSum.lean ====
/-
  A product contracted over one axis, a bias repeated over rows, and the word for the number one, at an index.

  Three facts about arrays of extended reals read at one entry, none of which mentions a particular size. A product
  of an `M × K` by a `K × N` array contracted over the shared axis is, at `(p, q)`, the sum over `k : Fin K` of
  `A (p, k) · B (k, q)` (`sum_dot`): the contraction's index set has a single axis, so it is in bijection with that
  axis's coordinate, and the operand indices at output `(p, q)` and contraction position `k` are `(p, k)` and `(k, q)`.
  A vector of `m` column values laid out as the one row `[1, m]` and repeated over `n` rows reads, at `(p, q)`, its
  entry `q` (`bias_apply`): a repeated axis of extent one reads coordinate `0`, every other axis its own coordinate.
  The 32-bit word `0x3F800000` denotes the number one (`one_f32`). `add3` is the congruence of a sum of three terms.
-/
import Idealize.ShloMosaic.PureOps.Ideal.Laws
import Idealize.ShloMosaic.Lib.ValueIdx
import Idealize.ShloMosaic.Lib.Pipeline.Value

noncomputable section

namespace Cert.LibDotSum

open Idealize.ShloMosaic Idealize.ShloMosaic.ValueIdx

/-! ## A contraction over one axis as a sum over that axis's coordinate -/

/-- For a product of an `M × K` by a `K × N` array contracted over the shared axis, the sum over the contraction
    index set is the sum over `k : Fin K` of `A (p, k) · B (k, q)`: the contraction index is its one coordinate, and
    the operand indices at output `(p, q)` are `(p, k)` and `(k, q)` (the four hypotheses, which compute on a
    given record of dimension numbers). -/
theorem sum_dot {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : (⟨2, ![M, K]⟩ : Shape).Idx → EReal) (B : (⟨2, ![K, N]⟩ : Shape).Idx → EReal) (p : Fin M) (q : Fin N) :
    ∑ k : D.contr.Idx, A (D.lhsIdx (ix2 p q) k) * B (D.rhsIdx (ix2 p q) k) = ∑ k : Fin K, A (ix2 p k) * B (ix2 k q) := by
  refine Fintype.sum_equiv (contrEquiv1 D K hr hs) _ _ fun k => ?_
  have ha : D.lhsIdx (ix2 p q) k = ix2 p (contrEquiv1 D K hr hs k) := by
    funext a
    match a with
    | ⟨0, _⟩ => exact Fin.ext (hl0 _ k)
    | ⟨1, _⟩ => exact Fin.ext (hl1 _ k)
  have hb : D.rhsIdx (ix2 p q) k = ix2 (contrEquiv1 D K hr hs k) q := by
    funext a
    match a with
    | ⟨0, _⟩ => exact Fin.ext (hr0 _ k)
    | ⟨1, _⟩ => exact Fin.ext (hr1 _ k)
  rw [ha, hb]

/-- Three summands equal term by term. -/
theorem add3 {a b c a' b' c' : EReal} (h1 : a = a') (h2 : b = b') (h3 : c = c') : a + b + c = a' + b' + c' := by
  rw [h1, h2, h3]

/-! ## The word for the number one -/

/-- The word `0x3F800000` is the number one. -/
theorem one_f32 : Ideal.ofBits .f32 0x3F800000#32 = 1 := IdealRules.sign_bit.ideal_onePat .f32

/-! ## A bias repeated over rows, at an index -/

/-- A bias vector `[m]`, laid out as the one row `[1, m]` and repeated over `n` rows, reads at `(p, q)` its entry `q`. -/
theorem bias_apply {n m : Nat} {α : Type} (b : (⟨1, ![m]⟩ : Shape).Idx → α)
    (h1 : (⟨1, ![m]⟩ : Shape).BroadcastsInDim ⟨2, ![1, m]⟩ ![1])
    (h2 : (⟨2, ![1, m]⟩ : Shape).BroadcastsInDim ⟨2, ![n, m]⟩ ![0, 1]) (p : Fin n) (q : Fin m) :
    broadcastInDim ⟨2, ![n, m]⟩ ![0, 1] h2 (broadcastInDim ⟨2, ![1, m]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if m = 1 then 0 else q.val
      split
      · have := q.isLt; omega
      · rfl
  · match a with
    | ⟨0, _⟩ =>
      show q.val = if m = 1 then 0 else q.val
      split
      · have := q.isLt; omega
      · rfl

end Cert.LibDotSum

end
-- ==== Proof.RowLaws.lean ====
/-
  Three facts about arrays of extended reals read at one entry, stated for any sizes.

  The host's product of an `M × K` by a `K × N` array, contracted over the shared axis, is at entry `(r, c)` the sum over
  `k` of `A (r, k) · B (k, c)` (`host_dot_apply`): at the ideal instance the product is the exact sum over the contraction's
  index set, which for one contracted axis is that axis's coordinate. A vector of `n` entries laid out as the one row
  `[1, n]` is the same array whether it is re-shaped or repeated along a new leading axis of extent one (`row_of_vector`).
  And the bias row's entry under column `c` is what the vector repeated over all rows holds at `(r, c)` (`bias_entry`).
-/
import proofs.«100206_j64836826301092_1_alg».proof.Proof.LibDotSum
import Idealize.ShloMosaic.PureOps.Ideal.Laws
import Idealize.ShloMosaic.Lib.ValueIdx
import Idealize.ShloMosaic.Lib.ValueLayout
import Idealize.ShloMosaic.Lib.Pipeline.Value

noncomputable section

namespace Cert.RowLaws

open Idealize.ShloMosaic Idealize.ShloMosaic.ValueIdx

/-- The host's product contracted over one axis, at an entry: the sum over the shared coordinate. -/
theorem host_dot_apply {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : (⟨2, ![M, K]⟩ : Shape).Idx → EReal) (B : (⟨2, ![K, N]⟩ : Shape).Idx → EReal) (i : (⟨2, ![M, N]⟩ : Shape).Idx) :
    FloatOps.dotGeneral (F := Ideal) (φ₁ := .f32) (φ₂ := .f32) D none .single A B i
      = ∑ k : Fin K, A (ix2 (⟨(i 0).val, (i 0).isLt⟩ : Fin M) k) * B (ix2 k (⟨(i 1).val, (i 1).isLt⟩ : Fin N)) := by
  obtain ⟨r, q, rfl⟩ : ∃ (r : Fin M) (q : Fin N), i = ix2 r q := ⟨i 0, i 1, eq_ix2 i⟩
  exact (Ideal.dotGeneral_apply D none .single A B (ix2 r q)).trans (Cert.LibDotSum.sum_dot D hr hs hl0 hl1 hr0 hr1 A B r q)

/-- A vector as one row: re-shaped to `[1, n]`, or repeated along a new leading axis of extent one. -/
theorem row_of_vector {n : Nat} {α : Type} (x : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ x hc = broadcastInDim ⟨2, ![1, n]⟩ ![1] hb x := by
  funext j
  obtain ⟨u, q, rfl⟩ : ∃ (u : Fin 1) (q : Fin n), j = ix2 u q := ⟨j 0, j 1, eq_ix2 j⟩
  refine (shapeCast_a_1a_apply x hc u q).trans (broadcastInDim_apply _ hb x (ix2 u q) (ix1 q) fun a => ?_).symm
  match a with
  | ⟨0, _⟩ =>
    show q.val = if n = 1 then 0 else q.val
    split
    · have := q.isLt; omega
    · rfl

/-- The bias row's entry under column `c` is what the vector repeated over all rows holds at `(r, c)`. -/
theorem bias_entry {n m : Nat} {α : Type} (b : (⟨1, ![m]⟩ : Shape).Idx → α)
    (hc : (⟨1, ![m]⟩ : Shape).ShapeCasts ⟨2, ![1, m]⟩)
    (h1 : (⟨1, ![m]⟩ : Shape).BroadcastsInDim ⟨2, ![1, m]⟩ ![1])
    (h2 : (⟨2, ![1, m]⟩ : Shape).BroadcastsInDim ⟨2, ![n, m]⟩ ![0, 1]) (i : (⟨2, ![n, m]⟩ : Shape).Idx) :
    shapeCast ⟨2, ![1, m]⟩ b hc (ix2 (0 : Fin 1) (⟨(i 1).val, (i 1).isLt⟩ : Fin m))
      = broadcastInDim ⟨2, ![n, m]⟩ ![0, 1] h2 (broadcastInDim ⟨2, ![1, m]⟩ ![1] h1 b) i := by
  obtain ⟨r, q, rfl⟩ : ∃ (r : Fin n) (q : Fin m), i = ix2 r q := ⟨i 0, i 1, eq_ix2 i⟩
  exact (shapeCast_a_1a_apply b hc 0 q).trans (Cert.LibDotSum.bias_apply b h1 h2 r q).symm

end Cert.RowLaws

end
-- ==== Proof.Kept.lean ====
/-
  Buffers no segment writes between two boundaries keep their contents.

  The kernel program's buffers at its segment boundaries are a fold from the launch memory: a stretch of host operations
  rewrites only the buffers its operations write, a tiled region only its own output array. So an argument array is, at
  every boundary, what was launched; and the two edge rows and the per-edge factor, computed before the first region, are
  still there when the second and third message passes read them. Each statement walks the fold back one segment at a
  time: a host stretch by checking that none of its operations writes the buffer, a region by the buffer not being one of
  its arrays.
-/
import proofs.«100206_j64836826301092_1_alg».proof.Proof.Gen.KernelIdeal.Frame
import Idealize.ShloMosaic.Lib.ValueIdx

set_option maxRecDepth 16384
set_option maxHeartbeats 4000000

noncomputable section

namespace Cert.KernelIdeal.Stages

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## Arguments, as each segment finds them: as launched -/

/-- The node features when the first region is entered. -/
theorem x_at3 : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- The first weights when the first region is entered. -/
theorem w0_at3 : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The edge weights when the per-edge factor is computed. -/
theorem w_at2 : W2 m ρ c (Proc.devRef .tc main_arg2) = m ((c : Thread nD τ).loc main_arg2) :=
  calc W2 m ρ c (Proc.devRef .tc main_arg2)
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The first bias after the first region. -/
theorem b0_at4 : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- The selected row numbers after the second region. -/
theorem idx_at6 : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The fully connected weights after the second region. -/
theorem fcw_at6 : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

/-- The fully connected bias after the second region. -/
theorem fcb_at6 : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := StableHlo.after_of_forall_not_mem (b := Proc.devRef .tc main_arg11) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

/-- The selected row numbers after the third region. -/
theorem idx_at8 : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The second weights when the fourth region is entered. -/
theorem w1_at9 : W9 m ρ c (Proc.devRef .tc main_arg6) = m ((c : Thread nD τ).loc main_arg6) :=
  calc W9 m ρ c (Proc.devRef .tc main_arg6)
    _ = W8 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg6) := W8_of_ne m ρ c main_arg6 (by decide)
    _ = W6 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- The second bias after the fourth region. -/
theorem b1_at10 : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- The last weights when the sixth region is entered. -/
theorem w2_at12 : W12 m ρ c (Proc.devRef .tc main_arg8) = m ((c : Thread nD τ).loc main_arg8) :=
  calc W12 m ρ c (Proc.devRef .tc main_arg8)
    _ = W11 m ρ c (Proc.devRef .tc main_arg8) := W12_of_ne m ρ c main_arg8 (by decide)
    _ = W10 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg8) := W10_of_ne m ρ c main_arg8 (by decide)
    _ = W8 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- The last bias after the sixth region. -/
theorem b2_at13 : W13 m ρ c (Proc.devRef .tc main_arg9) = m ((c : Thread nD τ).loc main_arg9) :=
  calc W13 m ρ c (Proc.devRef .tc main_arg9)
    _ = W12 m ρ c (Proc.devRef .tc main_arg9) := W13_of_ne m ρ c main_arg9 (by decide)
    _ = W11 m ρ c (Proc.devRef .tc main_arg9) := W12_of_ne m ρ c main_arg9 (by decide)
    _ = W10 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg9) := W10_of_ne m ρ c main_arg9 (by decide)
    _ = W8 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-! ## The edge rows and the per-edge factor, from where they are computed to where they are last read -/

/-- Untouched by the inverse-root selection. -/
theorem src_kept2 : W2 m ρ c (Proc.devRef .tc main_v1) = W1 m ρ c (Proc.devRef .tc main_v1) :=
  calc W2 m ρ c (Proc.devRef .tc main_v1)
    _ = W1 m ρ c (Proc.devRef .tc main_v1) := StableHlo.after_of_forall_not_mem (b := Proc.devRef .tc main_v1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Untouched while the per-edge factor is computed. -/
theorem src_kept3 : W3 m ρ c (Proc.devRef .tc main_v1) = W2 m ρ c (Proc.devRef .tc main_v1) :=
  calc W3 m ρ c (Proc.devRef .tc main_v1)
    _ = W2 m ρ c (Proc.devRef .tc main_v1) := StableHlo.after_of_forall_not_mem (b := Proc.devRef .tc main_v1) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Untouched by the inverse-root selection. -/
theorem dst_kept2 : W2 m ρ c (Proc.devRef .tc main_v3) = W1 m ρ c (Proc.devRef .tc main_v3) :=
  calc W2 m ρ c (Proc.devRef .tc main_v3)
    _ = W1 m ρ c (Proc.devRef .tc main_v3) := StableHlo.after_of_forall_not_mem (b := Proc.devRef .tc main_v3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Untouched while the per-edge factor is computed. -/
theorem dst_kept3 : W3 m ρ c (Proc.devRef .tc main_v3) = W2 m ρ c (Proc.devRef .tc main_v3) :=
  calc W3 m ρ c (Proc.devRef .tc main_v3)
    _ = W2 m ρ c (Proc.devRef .tc main_v3) := StableHlo.after_of_forall_not_mem (b := Proc.devRef .tc main_v3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Untouched by the first region. -/
theorem src_kept4 : W4 m ρ c (Proc.devRef .tc main_v1) = W3 m ρ c (Proc.devRef .tc main_v1) :=
  calc W4 m ρ c (Proc.devRef .tc main_v1)
    _ = W3 m ρ c (Proc.devRef .tc main_v1) := W4_of_ne m ρ c main_v1 (by decide)

/-- Untouched from the first region's exit to the fourth's. -/
theorem src_kept10 : W10 m ρ c (Proc.devRef .tc main_v1) = W4 m ρ c (Proc.devRef .tc main_v1) :=
  calc W10 m ρ c (Proc.devRef .tc main_v1)
    _ = W9 m ρ c (Proc.devRef .tc main_v1) := W10_of_ne m ρ c main_v1 (by decide)
    _ = W8 m ρ c (Proc.devRef .tc main_v1) := StableHlo.after_of_forall_not_mem (b := Proc.devRef .tc main_v1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v1) := W8_of_ne m ρ c main_v1 (by decide)
    _ = W6 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Untouched from the fourth region's exit to the sixth's. -/
theorem src_kept13 : W13 m ρ c (Proc.devRef .tc main_v1) = W10 m ρ c (Proc.devRef .tc main_v1) :=
  calc W13 m ρ c (Proc.devRef .tc main_v1)
    _ = W12 m ρ c (Proc.devRef .tc main_v1) := W13_of_ne m ρ c main_v1 (by decide)
    _ = W11 m ρ c (Proc.devRef .tc main_v1) := W12_of_ne m ρ c main_v1 (by decide)
    _ = W10 m ρ c (Proc.devRef .tc main_v1) := StableHlo.after_of_forall_not_mem (b := Proc.devRef .tc main_v1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Untouched by the first region. -/
theorem dst_kept4 : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

/-- Untouched from the first region's exit to the fourth's. -/
theorem dst_kept10 : W10 m ρ c (Proc.devRef .tc main_v3) = W4 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Untouched from the fourth region's exit to the sixth's. -/
theorem dst_kept13 : W13 m ρ c (Proc.devRef .tc main_v3) = W10 m ρ c (Proc.devRef .tc main_v3) :=
  calc W13 m ρ c (Proc.devRef .tc main_v3)
    _ = W12 m ρ c (Proc.devRef .tc main_v3) := W13_of_ne m ρ c main_v3 (by decide)
    _ = W11 m ρ c (Proc.devRef .tc main_v3) := W12_of_ne m ρ c main_v3 (by decide)
    _ = W10 m ρ c (Proc.devRef .tc main_v3) := StableHlo.after_of_forall_not_mem (b := Proc.devRef .tc main_v3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Untouched by the first region. -/
theorem norm_kept4 : W4 m ρ c (Proc.devRef .tc main_v26) = W3 m ρ c (Proc.devRef .tc main_v26) :=
  calc W4 m ρ c (Proc.devRef .tc main_v26)
    _ = W3 m ρ c (Proc.devRef .tc main_v26) := W4_of_ne m ρ c main_v26 (by decide)

/-- Untouched from the first region's exit to the fourth's. -/
theorem norm_kept10 : W10 m ρ c (Proc.devRef .tc main_v26) = W4 m ρ c (Proc.devRef .tc main_v26) :=
  calc W10 m ρ c (Proc.devRef .tc main_v26)
    _ = W9 m ρ c (Proc.devRef .tc main_v26) := W10_of_ne m ρ c main_v26 (by decide)
    _ = W8 m ρ c (Proc.devRef .tc main_v26) := StableHlo.after_of_forall_not_mem (b := Proc.devRef .tc main_v26) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v26) := W8_of_ne m ρ c main_v26 (by decide)
    _ = W6 m ρ c (Proc.devRef .tc main_v26) := StableHlo.after_of_forall_not_mem (b := Proc.devRef .tc main_v26) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v26) := W6_of_ne m ρ c main_v26 (by decide)
    _ = W4 m ρ c (Proc.devRef .tc main_v26) := StableHlo.after_of_forall_not_mem (b := Proc.devRef .tc main_v26) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Untouched from the fourth region's exit to the sixth's. -/
theorem norm_kept13 : W13 m ρ c (Proc.devRef .tc main_v26) = W10 m ρ c (Proc.devRef .tc main_v26) :=
  calc W13 m ρ c (Proc.devRef .tc main_v26)
    _ = W12 m ρ c (Proc.devRef .tc main_v26) := W13_of_ne m ρ c main_v26 (by decide)
    _ = W11 m ρ c (Proc.devRef .tc main_v26) := W12_of_ne m ρ c main_v26 (by decide)
    _ = W10 m ρ c (Proc.devRef .tc main_v26) := StableHlo.after_of_forall_not_mem (b := Proc.devRef .tc main_v26) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Stages

end
-- ==== Proof.Selection.lean ====
/-
  A selection whose operands and result travel through typed references.

  The kernel program's inverse-root step is a call of a small function: its mask, its roots and its zero are handed over
  through typed references, the zero is repeated over all nodes inside, and the selected array is handed back. Carrying a
  value through a typed reference and back does not change it, so the call computes the plain selection of the mask, the
  roots and the repeated zero. Stated over arbitrary arrays, so that nothing about where they came from is opened.
-/
import proofs.«100206_j64836826301092_1_alg».proof.Proof.Gen.KernelIdeal.Frame
import proofs.«100206_j64836826301092_1_alg».proof.Proof.Gen.ReferenceIdeal.Read

set_option maxRecDepth 16384
set_option maxHeartbeats 4000000

noncomputable section

namespace Cert.KernelIdeal.Selection

open Cert.KernelIdeal Cert.KernelIdeal.Gen Idealize.ShloMosaic Idealize.ShloMosaic.TcCoe Idealize.ShloMosaic.ValueIdx Idealize.SL.Sem

/-- The selection through typed references is the selection. -/
theorem through_refs (mask : (⟨S100000, .i1⟩ : BufTy).Contents (Elt Ideal)) (roots : (⟨S100000, .f32⟩ : BufTy).Contents (Elt Ideal))
    (zero : (⟨S_, .f32⟩ : BufTy).Contents (Elt Ideal)) :
    (StableHlo.TRef.of (sig := sig) (T := ⟨S100000, .f32⟩) main_v10).toBuf
      (select ((StableHlo.TRef.of (sig := sig) (T := ⟨S100000, .i1⟩) main_v8).ofBuf mask) ((StableHlo.TRef.of (sig := sig) (T := ⟨S100000, .f32⟩) main_v9).ofBuf roots)
        ((StableHlo.TRef.of (sig := sig) (T := ⟨S100000, .f32⟩) main_call0_v1).ofBuf ((StableHlo.TRef.of (sig := sig) (T := ⟨S100000, .f32⟩) main_call0_v1).toBuf
          (broadcastInDim S100000 ![] bcast_S_S100000
            ((StableHlo.TRef.of (sig := sig) (T := ⟨S_, .f32⟩) main_call0_v0).ofBuf ((StableHlo.TRef.of (sig := sig) (T := ⟨S_, .f32⟩) main_call0_v0).toBuf
              (id ((StableHlo.TRef.of (sig := sig) (T := ⟨S_, .f32⟩) main_cst_1).ofBuf zero))))))))
      = select mask roots (broadcastInDim S100000 ![] bcast_S_S100000 (id zero)) := rfl

end Cert.KernelIdeal.Selection

end
-- ==== Proof.EdgeFactor.lean ====
/-
  The edge rows and the per-edge factor, as the first region finds them.

  Before its first region the kernel program splits the edge list into its source and destination rows, sums the edge
  weights into the destinations' degrees, takes the inverse square root where the degree is positive (zero elsewhere), and
  multiplies, edge by edge, the source's value, the edge weight and the destination's value. The reference does the same,
  operation for operation. The three stretches of host operations are read one after the other — the degree mask and the
  inverse roots; their selection; the two gathers and the products — each buffer named by the reference's stage of the same
  arguments as soon as it is computed. The selection is the one place where the two programs spell a step differently (the
  kernel program calls a function whose values travel through typed references): that call is the plain selection (the
  selection module), of the same mask, roots and zero.
-/
import proofs.«100206_j64836826301092_1_alg».proof.Proof.Gen.KernelIdeal.Frame
import proofs.«100206_j64836826301092_1_alg».proof.Proof.Gen.ReferenceIdeal.Read
import proofs.«100206_j64836826301092_1_alg».proof.Proof.Kept
import proofs.«100206_j64836826301092_1_alg».proof.Proof.Selection
import Idealize.ShloMosaic.Lib.StableHlo.Run

set_option maxRecDepth 16384
set_option maxHeartbeats 4000000

noncomputable section

namespace Cert.KernelIdeal.Stages

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## After the first stretch: the edge rows, the degree mask, the inverse roots -/

/-- The edges' source row. -/
theorem src_at1 : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results_simp
  rfl

/-- The edges' destination row. -/
theorem dst_at1 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp
  rfl

/-- Where the degree is positive. -/
theorem positive_at1 : W1 m ρ c (Proc.devRef .tc main_v8) = Cert.ReferenceIdeal.Read.val_main_v8 (F := Ideal) (m ((c : Thread nD τ).loc main_arg1)) (m ((c : Thread nD τ).loc main_arg2)) := by
  show StableHlo.after hostOps0 (W0 m ρ c) (Proc.devRef .tc main_v8) = _
  after_results_simp
  rfl

/-- The degrees' inverse square roots. -/
theorem roots_at1 : W1 m ρ c (Proc.devRef .tc main_v9) = Cert.ReferenceIdeal.Read.val_main_v9 (F := Ideal) (m ((c : Thread nD τ).loc main_arg1)) (m ((c : Thread nD τ).loc main_arg2)) := by
  show StableHlo.after hostOps0 (W0 m ρ c) (Proc.devRef .tc main_v9) = _
  after_results_simp
  rfl

/-- The constant zero. -/
theorem zero_at1 : W1 m ρ c (Proc.devRef .tc main_cst_1) = Cert.ReferenceIdeal.Read.val_main_cst_1 (F := Ideal) := by
  show StableHlo.after hostOps0 (W0 m ρ c) (Proc.devRef .tc main_cst_1) = _
  after_results_simp
  rfl

/-! ## After the second stretch: the inverse roots where the degree is positive, zero elsewhere -/

/-- The selected inverse roots: the same selection of the same mask, roots and zero. -/
theorem dinv_at2 : W2 m ρ c (Proc.devRef .tc main_v10) = Cert.ReferenceIdeal.Read.val_main_v10 (F := Ideal) (m ((c : Thread nD τ).loc main_arg1)) (m ((c : Thread nD τ).loc main_arg2)) := by
  show StableHlo.after hostOps0_1 (W1 m ρ c) (Proc.devRef .tc main_v10) = _
  have h0 := positive_at1 m ρ c
  have h1 := roots_at1 m ρ c
  have h2 := zero_at1 m ρ c
  revert h0 h1 h2
  generalize W1 m ρ c = Wb
  intro h0 h1 h2
  after_results_simp
  rw [h0, h1, h2]
  exact Cert.KernelIdeal.Selection.through_refs _ _ _

theorem src_at2 : W2 m ρ c (Proc.devRef .tc main_v1) = Cert.ReferenceIdeal.Read.val_main_v1 (F := Ideal) (m ((c : Thread nD τ).loc main_arg1)) := (src_kept2 m ρ c).trans (src_at1 m ρ c)
theorem dst_at2 : W2 m ρ c (Proc.devRef .tc main_v3) = Cert.ReferenceIdeal.Read.val_main_v3 (F := Ideal) (m ((c : Thread nD τ).loc main_arg1)) := (dst_kept2 m ρ c).trans (dst_at1 m ρ c)

/-! ## After the third stretch: the per-edge factor -/

/-- The per-edge factor: source value, edge weight, destination value. -/
theorem norm_at3 : W3 m ρ c (Proc.devRef .tc main_v26) = Cert.ReferenceIdeal.Read.val_main_v26 (F := Ideal) (m ((c : Thread nD τ).loc main_arg1)) (m ((c : Thread nD τ).loc main_arg2)) := by
  show StableHlo.after hostOps0_2 (W2 m ρ c) (Proc.devRef .tc main_v26) = _
  have h0 := dinv_at2 m ρ c
  have h1 := src_at2 m ρ c
  have h2 := dst_at2 m ρ c
  have h3 := w_at2 m ρ c
  revert h0 h1 h2 h3
  generalize W2 m ρ c = Wb
  intro h0 h1 h2 h3
  after_results_simp
  rw [h0, h1, h2, h3]
  rfl

theorem src_at3 : W3 m ρ c (Proc.devRef .tc main_v1) = Cert.ReferenceIdeal.Read.val_main_v1 (F := Ideal) (m ((c : Thread nD τ).loc main_arg1)) := (src_kept3 m ρ c).trans (src_at2 m ρ c)
theorem dst_at3 : W3 m ρ c (Proc.devRef .tc main_v3) = Cert.ReferenceIdeal.Read.val_main_v3 (F := Ideal) (m ((c : Thread nD τ).loc main_arg1)) := (dst_kept3 m ρ c).trans (dst_at2 m ρ c)

/-! ## The same three buffers where the three message passes read them -/

theorem src_at4 : W4 m ρ c (Proc.devRef .tc main_v1) = Cert.ReferenceIdeal.Read.val_main_v1 (F := Ideal) (m ((c : Thread nD τ).loc main_arg1)) :=
  (src_kept4 m ρ c).trans (src_at3 m ρ c)
theorem dst_at4 : W4 m ρ c (Proc.devRef .tc main_v3) = Cert.ReferenceIdeal.Read.val_main_v3 (F := Ideal) (m ((c : Thread nD τ).loc main_arg1)) :=
  (dst_kept4 m ρ c).trans (dst_at3 m ρ c)
theorem norm_at4 : W4 m ρ c (Proc.devRef .tc main_v26) = Cert.ReferenceIdeal.Read.val_main_v26 (F := Ideal) (m ((c : Thread nD τ).loc main_arg1)) (m ((c : Thread nD τ).loc main_arg2)) :=
  (norm_kept4 m ρ c).trans (norm_at3 m ρ c)
theorem src_at10 : W10 m ρ c (Proc.devRef .tc main_v1) = Cert.ReferenceIdeal.Read.val_main_v1 (F := Ideal) (m ((c : Thread nD τ).loc main_arg1)) :=
  (src_kept10 m ρ c).trans ((src_kept4 m ρ c).trans (src_at3 m ρ c))
theorem dst_at10 : W10 m ρ c (Proc.devRef .tc main_v3) = Cert.ReferenceIdeal.Read.val_main_v3 (F := Ideal) (m ((c : Thread nD τ).loc main_arg1)) :=
  (dst_kept10 m ρ c).trans ((dst_kept4 m ρ c).trans (dst_at3 m ρ c))
theorem norm_at10 : W10 m ρ c (Proc.devRef .tc main_v26) = Cert.ReferenceIdeal.Read.val_main_v26 (F := Ideal) (m ((c : Thread nD τ).loc main_arg1)) (m ((c : Thread nD τ).loc main_arg2)) :=
  (norm_kept10 m ρ c).trans ((norm_kept4 m ρ c).trans (norm_at3 m ρ c))
theorem src_at13 : W13 m ρ c (Proc.devRef .tc main_v1) = Cert.ReferenceIdeal.Read.val_main_v1 (F := Ideal) (m ((c : Thread nD τ).loc main_arg1)) :=
  (src_kept13 m ρ c).trans ((src_kept10 m ρ c).trans ((src_kept4 m ρ c).trans (src_at3 m ρ c)))
theorem dst_at13 : W13 m ρ c (Proc.devRef .tc main_v3) = Cert.ReferenceIdeal.Read.val_main_v3 (F := Ideal) (m ((c : Thread nD τ).loc main_arg1)) :=
  (dst_kept13 m ρ c).trans ((dst_kept10 m ρ c).trans ((dst_kept4 m ρ c).trans (dst_at3 m ρ c)))
theorem norm_at13 : W13 m ρ c (Proc.devRef .tc main_v26) = Cert.ReferenceIdeal.Read.val_main_v26 (F := Ideal) (m ((c : Thread nD τ).loc main_arg1)) (m ((c : Thread nD τ).loc main_arg2)) :=
  (norm_kept13 m ρ c).trans ((norm_kept10 m ρ c).trans ((norm_kept4 m ρ c).trans (norm_at3 m ρ c)))

end Cert.KernelIdeal.Stages

end
-- ==== Proof.InputProjection.lean ====
/-
  The first dense layer's product: the node features `x` (one column) against the weight row `W0`, row block by row block.

  The region runs over 20 grid points; point `t` stages rows `5000·t … 5000·t + 4999` of the left array
  (a `100000 × 1` array) and the whole right array (`1 × 128`), multiplies them into a zero accumulator and
  writes the `5000 × 128` result back as rows `5000·t …` of the output. Over the extended reals a product into a zero
  accumulator is the plain sum over the shared coordinate, so the block written at `t` is block `t` of ONE function of the
  two whole arrays: entry `(r, c)` is `∑ k, A (r, k) · B (k, c)`. The 20 blocks tile the output's rows (row `r` lies in
  the block of point `r / 5000`), so after the run the output array IS that function.
-/
import proofs.«100206_j64836826301092_1_alg».proof.Proof.Gen.KernelIdeal.Frame
import proofs.«100206_j64836826301092_1_alg».proof.Proof.LibDotSum
import Idealize.ShloMosaic.Lib.Pipeline.Value
import Idealize.ShloMosaic.Lib.ValueIdx
import Idealize.ShloMosaic.PureOps.Ideal.Laws

set_option maxRecDepth 16384

noncomputable section

namespace Cert.KernelIdeal.InputProjection

open Cert.KernelIdeal Cert.KernelIdeal.Gen Idealize.ShloMosaic Idealize.ShloMosaic.TcCoe Idealize.ShloMosaic.ValueIdx Idealize.SL.Sem
open Idealize.ShloMosaic.Pipeline (Dat)

/-- An entry of a float array at the ideal instance IS an extended real; `entry` displays it as one. -/
abbrev entry (x : EReal) : EReal := x

/-- The origin of a two-axis rectangle. -/
theorem origin : (![0, 0] : Fin 2 → Nat) = fun _ => 0 := funext fun a => by fin_cases a <;> rfl

/-- Rows of `A` against columns of `B`: entry `(r, c)` is the sum over the shared coordinate `k` of `A (r, k) · B (k, c)`. -/
def rowsTimes (A : S100000x1.Idx → EReal) (B : S1x128.Idx → EReal) : S100000x128.Idx → EReal :=
  fun i => ∑ k : Fin 1, A (ix2 (⟨(i 0).val, (i 0).isLt⟩ : Fin 100000) k) * B (ix2 k (⟨(i 1).val, (i 1).isLt⟩ : Fin 128))

/-! ## The operand coordinates of the block product -/

theorem lhs0 (j : S5000x128.Idx) (k : dot_S5000x1_S1x128_S5000x128_1_0_0_1_n_n.contr.Idx) : (dot_S5000x1_S1x128_S5000x128_1_0_0_1_n_n.lhsIdx j k 0).val = (j 0).val := by
  unfold DotDims.lhsIdx
  rw [dif_neg (show ¬(0 : Fin S5000x1.rank) ∈ dot_S5000x1_S1x128_S5000x128_1_0_0_1_n_n.lhsBatch by decide), dif_pos (show (0 : Fin S5000x1.rank) ∈ dot_S5000x1_S1x128_S5000x128_1_0_0_1_n_n.lhsNonContracting by decide)]
  rfl
theorem lhs1 (j : S5000x128.Idx) (k : dot_S5000x1_S1x128_S5000x128_1_0_0_1_n_n.contr.Idx) : (dot_S5000x1_S1x128_S5000x128_1_0_0_1_n_n.lhsIdx j k 1).val = (k ⟨0, by decide⟩).val :=
  dot_S5000x1_S1x128_S5000x128_1_0_0_1_n_n.lhsIdx_val_of_single rfl j k
theorem rhs0 (j : S5000x128.Idx) (k : dot_S5000x1_S1x128_S5000x128_1_0_0_1_n_n.contr.Idx) : (dot_S5000x1_S1x128_S5000x128_1_0_0_1_n_n.rhsIdx j k 0).val = (k ⟨0, by decide⟩).val :=
  dot_S5000x1_S1x128_S5000x128_1_0_0_1_n_n.rhsIdx_val_of_single rfl j k
theorem rhs1 (j : S5000x128.Idx) (k : dot_S5000x1_S1x128_S5000x128_1_0_0_1_n_n.contr.Idx) : (dot_S5000x1_S1x128_S5000x128_1_0_0_1_n_n.rhsIdx j k 1).val = (j 1).val := by
  unfold DotDims.rhsIdx
  rw [dif_neg (show ¬(1 : Fin S1x128.rank) ∈ dot_S5000x1_S1x128_S5000x128_1_0_0_1_n_n.rhsBatch by decide), dif_pos (show (1 : Fin S1x128.rank) ∈ dot_S5000x1_S1x128_S5000x128_1_0_0_1_n_n.rhsNonContracting by decide)]
  rfl

/-- What one point stores, at `(p, q)` of its block: the sum over the shared coordinate of the staged rows against the
    staged columns (the accumulator is the zero array). -/
theorem stored_apply (x0 : Vec Ideal S5000x1 .f32) (x1 : Vec Ideal S1x128 .f32) (p : Fin 5000) (q : Fin 128) :
    k0_pay1 (F := Ideal) x0 x1 (ix2 p q) = ∑ k : Fin 1, x0 (ix2 p k) * x1 (ix2 k q) := by
  unfold k0_pay1
  refine (Ideal.matmul_constant_zero_apply dot_S5000x1_S1x128_S5000x128_1_0_0_1_n_n none x0 x1 (ix2 p q)).trans ?_
  exact Cert.LibDotSum.sum_dot dot_S5000x1_S1x128_S5000x128_1_0_0_1_n_n rfl rfl lhs0 lhs1 rhs0 rhs1 x0 x1 p q

/-! ## The block a point writes back is its block of `rowsTimes` -/

/-- Where the three windows sit at point `t`: the left operand's and the output's row blocks are block `t`, the right
    operand is staged whole. Decided over the 20 points. -/
theorem placed : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every row block of the output is some point's. -/
theorem reached : ∀ b : Fin 20, ∃ t : Fin cfg0.N, win0_2.index t = ![b.val, 0] :=
  (by decide +kernel : ∀ b : Fin 20, ∃ t : Fin grid0.N, win0_2.index t = ![b.val, 0])

variable (V : (c : Dev nD) → (b : Ref sig .tc) → Buf (Elt Ideal) ((c : Thread nD τ).loc b))

theorem flushed_eq (c : Dev nD) (t : Fin cfg0.N) :
    (dat0 V c).flushed 2 t = ((cfg0.win 2).blk t).view.read (Elt Ideal) (rowsTimes (V c main_arg0) (V c main_arg4)) := by
  show (cfg0.win 2).cut (grid0.coords t) ((dat0 V c).after 2 t) = _
  rw [after0_2]
  unfold out0_2
  rw [View.canon_unit_zero origin]
  simp only [View.ld_unit_zero (S := S5000x1) origin, View.ld_unit_zero (S := S1x128) origin]
  obtain ⟨e0, e1, e2, e3, e4⟩ := placed t
  refine funext fun (j : S5000x128.Idx) => ?_
  obtain ⟨p, q, rfl⟩ : ∃ (p : Fin 5000) (q : Fin 128), j = ix2 p q := ⟨j 0, j 1, eq_ix2 j⟩
  refine (stored_apply (iblk0 V c 0 t) (iblk0 V c 1 t) p q).trans ?_
  show (∑ k : Fin 1, entry (iblk0 V c 0 t (ix2 p k)) * entry (iblk0 V c 1 t (ix2 k q)))
    = ∑ k : Fin 1, entry (V c main_arg0 (ix2 (⟨((((cfg0.win 2).blk t).view.emb (ix2 p q)) 0).val, ((((cfg0.win 2).blk t).view.emb (ix2 p q)) 0).isLt⟩ : Fin 100000) k))
      * entry (V c main_arg4 (ix2 k (⟨((((cfg0.win 2).blk t).view.emb (ix2 p q)) 1).val, ((((cfg0.win 2).blk t).view.emb (ix2 p q)) 1).isLt⟩ : Fin 128)))
  refine Finset.sum_congr rfl fun k _ => ?_
  show entry (V c main_arg0 (((cfg0.win 0).blk t).view.emb (ix2 p k))) * entry (V c main_arg4 (((cfg0.win 1).blk t).view.emb (ix2 k q)))
    = entry (V c main_arg0 (ix2 (⟨((((cfg0.win 2).blk t).view.emb (ix2 p q)) 0).val, ((((cfg0.win 2).blk t).view.emb (ix2 p q)) 0).isLt⟩ : Fin 100000) k))
      * entry (V c main_arg4 (ix2 k (⟨((((cfg0.win 2).blk t).view.emb (ix2 p q)) 1).val, ((((cfg0.win 2).blk t).view.emb (ix2 p q)) 1).isLt⟩ : Fin 128)))
  have hA : ((cfg0.win 0).blk t).view.emb (ix2 p k)
      = ix2 (⟨((((cfg0.win 2).blk t).view.emb (ix2 p q)) 0).val, ((((cfg0.win 2).blk t).view.emb (ix2 p q)) 0).isLt⟩ : Fin 100000) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 1 + 1 * k.val = k.val; omega
  have hB : ((cfg0.win 1).blk t).view.emb (ix2 k q)
      = ix2 k (⟨((((cfg0.win 2).blk t).view.emb (ix2 p q)) 1).val, ((((cfg0.win 2).blk t).view.emb (ix2 p q)) 1).isLt⟩ : Fin 128) := by
    funext a; apply Fin.ext
    match a with
    | ⟨0, _⟩ => show win0_1.index t (0 : Fin 2) * 1 + 1 * k.val = k.val; omega
    | ⟨1, _⟩ => show win0_1.index t (1 : Fin 2) * 128 + 1 * q.val = win0_2.index t (1 : Fin 2) * 128 + 1 * q.val; omega
  rw [hA, hB]

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- The blocks tile the output: row `r` lies in the block of point `r / 5000`. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := reached ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE OUTPUT ARRAY after the region: rows of the left array against columns of the right, as the region found them. -/
theorem value (c : Dev nD) : (dat0 V c).arrAt 2 cfg0.N = rowsTimes (V c main_arg0) (V c main_arg4) :=
  (dat0 V c).arrAt_eq_of_cover 2 _ (fun t _ => flushed_eq V c t) covered

end Cert.KernelIdeal.InputProjection

end
-- ==== Proof.FirstBias.lean ====
/-
  The first graph layer's bias and ReLU, row block by row block.

  The region runs over 20 grid points; point `t` stages rows `5000·t … 5000·t + 4999` of a `100000 × 128` array and the
  whole one-row bias `1 × 128`, and writes back, for each staged entry, the entry plus the bias of its column, clamped below at zero. That is block `t` of ONE
  function of the two whole arrays, entry by entry, and the 20 blocks tile the rows, so after the run the output array IS that
  function. Adding and taking a maximum are pointwise, so no property of the numbers is used.
-/
import proofs.«100206_j64836826301092_1_alg».proof.Proof.Gen.KernelIdeal.Frame
import proofs.«100206_j64836826301092_1_alg».proof.Proof.LibDotSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.FirstBias

open Cert.KernelIdeal Cert.KernelIdeal.Gen Idealize.ShloMosaic Idealize.ShloMosaic.TcCoe Idealize.ShloMosaic.ValueIdx Idealize.SL.Sem
open Idealize.ShloMosaic.Pipeline (Dat)

/-- An entry of a float array at the ideal instance IS an extended real; `entry` displays it as one. -/
abbrev entry (x : EReal) : EReal := x

/-- The origin of a two-axis rectangle. -/
theorem origin : (![0, 0] : Fin 2 → Nat) = fun _ => 0 := funext fun a => by fin_cases a <;> rfl

/-- Entry `(r, c)` of the array plus the bias row's entry `c`, clamped below at zero. -/
def rowPlusClamped (A : S100000x128.Idx → EReal) (b : S1x128.Idx → EReal) : S100000x128.Idx → EReal :=
  fun i => max (A i + b (ix2 (0 : Fin 1) (⟨(i 1).val, (i 1).isLt⟩ : Fin 128))) (Ideal.ofBits .f32 0x00000000#32)

/-- What one point stores, at `(p, q)` of its block. -/
theorem stored_apply (x0 : Vec Ideal S5000x128 .f32) (x1 : Vec Ideal S1x128 .f32) (p : Fin 5000) (q : Fin 128) :
    k1_pay1 (F := Ideal) x0 x1 (ix2 p q) = max (x0 (ix2 p q) + x1 (ix2 (0 : Fin 1) q)) (Ideal.ofBits .f32 0x00000000#32) := by
  have h0 : shapeCast S5000x128 x0 shapeCasts_S5000x128_S5000x128 = x0 := shapeCast_self x0 _
  have h1 : shapeCast S1x128 x1 shapeCasts_S1x128_S1x128 = x1 := shapeCast_self x1 _
  have hb : broadcastTo S5000x128 x1 broadcasts_S1x128_S5000x128 (ix2 p q) = x1 (ix2 (0 : Fin 1) q) :=
    broadcastTo_1b_ab_apply x1 broadcasts_S1x128_S5000x128 p q
  unfold k1_pay1
  show max ((shapeCast S5000x128 x0 shapeCasts_S5000x128_S5000x128) (ix2 p q)
        + (broadcastTo S5000x128 (shapeCast S1x128 x1 shapeCasts_S1x128_S1x128) broadcasts_S1x128_S5000x128) (ix2 p q)) (Ideal.ofBits .f32 0x00000000#32) = _
  rw [h0, h1, hb]

/-! ## The block a point writes back is its block of `rowPlusClamped` -/

/-- Where the three windows sit at point `t`: the input's and the output's row blocks coincide, the bias row is staged
    whole. Decided over the 20 points. -/
theorem placed : ∀ t : Fin cfg1.N, win1_0.index t (0 : Fin 2) = win1_2.index t (0 : Fin 2)
    ∧ win1_0.index t (1 : Fin 2) = win1_2.index t (1 : Fin 2)
    ∧ win1_1.index t (0 : Fin 2) = 0
    ∧ win1_1.index t (1 : Fin 2) = 0
    ∧ win1_2.index t (1 : Fin 2) = 0 :=
  (by decide +kernel : ∀ t : Fin grid1.N, _)

/-- Every row block of the output is some point's. -/
theorem reached : ∀ b : Fin 20, ∃ t : Fin cfg1.N, win1_2.index t = ![b.val, 0] :=
  (by decide +kernel : ∀ b : Fin 20, ∃ t : Fin grid1.N, win1_2.index t = ![b.val, 0])

variable (V : (c : Dev nD) → (b : Ref sig .tc) → Buf (Elt Ideal) ((c : Thread nD τ).loc b))

theorem flushed_eq (c : Dev nD) (t : Fin cfg1.N) :
    (dat1 V c).flushed 2 t = ((cfg1.win 2).blk t).view.read (Elt Ideal) (rowPlusClamped (V c main_v40) (V c main_v41)) := by
  show (cfg1.win 2).cut (grid1.coords t) ((dat1 V c).after 2 t) = _
  rw [after1_2]
  unfold out1_2
  rw [View.canon_unit_zero origin]
  simp only [View.ld_unit_zero (S := S5000x128) origin, View.ld_unit_zero (S := S1x128) origin]
  obtain ⟨e0, e1, e2, e3, e4⟩ := placed t
  refine funext fun (j : S5000x128.Idx) => ?_
  obtain ⟨p, q, rfl⟩ : ∃ (p : Fin 5000) (q : Fin 128), j = ix2 p q := ⟨j 0, j 1, eq_ix2 j⟩
  refine (stored_apply (iblk1 V c 0 t) (iblk1 V c 1 t) p q).trans ?_
  show max (entry (V c main_v40 (((cfg1.win 0).blk t).view.emb (ix2 p q))) + entry (V c main_v41 (((cfg1.win 1).blk t).view.emb (ix2 (0 : Fin 1) q)))) (Ideal.ofBits .f32 0x00000000#32)
    = max (entry (V c main_v40 (((cfg1.win 2).blk t).view.emb (ix2 p q)))
      + entry (V c main_v41 (ix2 (0 : Fin 1) (⟨((((cfg1.win 2).blk t).view.emb (ix2 p q)) 1).val, ((((cfg1.win 2).blk t).view.emb (ix2 p q)) 1).isLt⟩ : Fin 128)))) (Ideal.ofBits .f32 0x00000000#32)
  have hA : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have hB : ((cfg1.win 1).blk t).view.emb (ix2 (0 : Fin 1) q)
      = ix2 (0 : Fin 1) (⟨((((cfg1.win 2).blk t).view.emb (ix2 p q)) 1).val, ((((cfg1.win 2).blk t).view.emb (ix2 p q)) 1).isLt⟩ : Fin 128) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [hA, hB]

/-- An index of the output array is in point `t`'s block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v42).slice (win1_2.rect t)).set ↔ _
  rw [View.set_slice_whole, Rect.mem_set_unit]
  exact Iff.rfl

/-- The blocks tile the output: row `r` lies in the block of point `r / 5000`. -/
theorem covered (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := reached ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- THE OUTPUT ARRAY after the region, as one function of the arrays the region found. -/
theorem value (c : Dev nD) : (dat1 V c).arrAt 2 cfg1.N = rowPlusClamped (V c main_v40) (V c main_v41) :=
  (dat1 V c).arrAt_eq_of_cover 2 _ (fun t _ => flushed_eq V c t) covered

end Cert.KernelIdeal.FirstBias

end
-- ==== Proof.SelectedDense.lean ====
/-
  The fully connected layer on the selected rows: product with the transposed weights, bias, ReLU, row block by row block.

  The region runs over 10 grid points; point `t` stages rows `5000·t … 5000·t + 4999` of the left array (`50000 × 128`),
  the whole weight array (`128 × 128`) and the whole one-row bias (`1 × 128`); it multiplies the rows by the weights
  into a zero accumulator, adds the bias of each column, clamps below at zero, and writes the `5000 × 128` result back
  as rows `5000·t …` of the output. Over the extended reals the product into a zero accumulator is the plain sum over the
  shared coordinate, so the block written at `t` is block `t` of ONE function of the three whole arrays, and the 10
  blocks tile the output's rows: after the run the output array IS that function.
-/
import proofs.«100206_j64836826301092_1_alg».proof.Proof.Gen.KernelIdeal.Frame
import proofs.«100206_j64836826301092_1_alg».proof.Proof.LibDotSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.SelectedDense

open Cert.KernelIdeal Cert.KernelIdeal.Gen Idealize.ShloMosaic Idealize.ShloMosaic.TcCoe Idealize.ShloMosaic.ValueIdx Idealize.SL.Sem
open Idealize.ShloMosaic.Pipeline (Dat)

/-- An entry of a float array at the ideal instance IS an extended real; `entry` displays it as one. -/
abbrev entry (x : EReal) : EReal := x

/-- The origin of a two-axis rectangle. -/
theorem origin : (![0, 0] : Fin 2 → Nat) = fun _ => 0 := funext fun a => by fin_cases a <;> rfl

/-- Entry `(r, c)`: the sum over `k` of `A (r, k) · B (k, c)`, plus the bias row's entry `c`, clamped below at zero. -/
def denseClamped (A : S50000x128.Idx → EReal) (B : S128x128.Idx → EReal) (b : S1x128.Idx → EReal) : S50000x128.Idx → EReal :=
  fun i => max ((∑ k : Fin 128, A (ix2 (⟨(i 0).val, (i 0).isLt⟩ : Fin 50000) k) * B (ix2 k (⟨(i 1).val, (i 1).isLt⟩ : Fin 128)))
      + b (ix2 (0 : Fin 1) (⟨(i 1).val, (i 1).isLt⟩ : Fin 128))) (Ideal.ofBits .f32 0x00000000#32)

/-! ## The operand coordinates of the block product -/

theorem lhs0 (j : S5000x128.Idx) (k : dot_S5000x128_S128x128_S5000x128_1_0_0_1_n_n.contr.Idx) : (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs1 (j : S5000x128.Idx) (k : dot_S5000x128_S128x128_S5000x128_1_0_0_1_n_n.contr.Idx) : (dot_S5000x128_S128x128_S5000x128_1_0_0_1_n_n.lhsIdx j k 1).val = (k ⟨0, by decide⟩).val :=
  dot_S5000x128_S128x128_S5000x128_1_0_0_1_n_n.lhsIdx_val_of_single rfl j k
theorem rhs0 (j : S5000x128.Idx) (k : dot_S5000x128_S128x128_S5000x128_1_0_0_1_n_n.contr.Idx) : (dot_S5000x128_S128x128_S5000x128_1_0_0_1_n_n.rhsIdx j k 0).val = (k ⟨0, by decide⟩).val :=
  dot_S5000x128_S128x128_S5000x128_1_0_0_1_n_n.rhsIdx_val_of_single rfl j k
theorem rhs1 (j : S5000x128.Idx) (k : dot_S5000x128_S128x128_S5000x128_1_0_0_1_n_n.contr.Idx) : (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- What one point stores, at `(p, q)` of its block. -/
theorem stored_apply (x0 : Vec Ideal S5000x128 .f32) (x1 : Vec Ideal S128x128 .f32) (x2 : Vec Ideal S1x128 .f32) (p : Fin 5000) (q : Fin 128) :
    k2_pay1 (F := Ideal) x0 x1 x2 (ix2 p q)
      = max ((∑ k : Fin 128, x0 (ix2 p k) * x1 (ix2 k q)) + x2 (ix2 (0 : Fin 1) q)) (Ideal.ofBits .f32 0x00000000#32) := by
  have h0 : shapeCast S5000x128 x0 shapeCasts_S5000x128_S5000x128 = x0 := shapeCast_self x0 _
  have h1 : shapeCast S128x128 x1 shapeCasts_S128x128_S128x128 = x1 := shapeCast_self x1 _
  have h2 : shapeCast S1x128 x2 shapeCasts_S1x128_S1x128 = x2 := shapeCast_self x2 _
  have hb : broadcastTo S5000x128 x2 broadcasts_S1x128_S5000x128 (ix2 p q) = x2 (ix2 (0 : Fin 1) q) :=
    broadcastTo_1b_ab_apply x2 broadcasts_S1x128_S5000x128 p q
  have hm : FloatOps.matmul (F := Ideal) (φ₁ := .f32) (φ₂ := .f32) dot_S5000x128_S128x128_S5000x128_1_0_0_1_n_n none x0 x1 (constant (F := Ideal) S5000x128 .f32 0x00000000#32) (ix2 p q) = ∑ k : Fin 128, x0 (ix2 p k) * x1 (ix2 k q) :=
    (Ideal.matmul_constant_zero_apply (φ₁ := .f32) (φ₂ := .f32) dot_S5000x128_S128x128_S5000x128_1_0_0_1_n_n none x0 x1 (ix2 p q)).trans
      (Cert.LibDotSum.sum_dot dot_S5000x128_S128x128_S5000x128_1_0_0_1_n_n rfl rfl lhs0 lhs1 rhs0 rhs1 x0 x1 p q)
  unfold k2_pay1
  show max (FloatOps.matmul (F := Ideal) (φ₁ := .f32) (φ₂ := .f32) dot_S5000x128_S128x128_S5000x128_1_0_0_1_n_n none (shapeCast S5000x128 x0 shapeCasts_S5000x128_S5000x128) (shapeCast S128x128 x1 shapeCasts_S128x128_S128x128)
          (constant (F := Ideal) S5000x128 .f32 0x00000000#32) (ix2 p q)
        + (broadcastTo S5000x128 (shapeCast S1x128 x2 shapeCasts_S1x128_S1x128) broadcasts_S1x128_S5000x128) (ix2 p q))
      (Ideal.ofBits .f32 0x00000000#32) = _
  rw [h0, h1, h2, hb, hm]

/-! ## The block a point writes back is its block of `denseClamped` -/

/-- Where the four windows sit at point `t`: the left operand's and the output's row blocks are block `t`; the weights
    and the bias row are staged whole. Decided over the 10 points. -/
theorem placed : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (1 : Fin 2) = 0 :=
  (by decide +kernel : ∀ t : Fin grid2.N, _)

/-- Every row block of the output is some point's. -/
theorem reached : ∀ b : Fin 10, ∃ t : Fin cfg2.N, win2_3.index t = ![b.val, 0] :=
  (by decide +kernel : ∀ b : Fin 10, ∃ t : Fin grid2.N, win2_3.index t = ![b.val, 0])

variable (V : (c : Dev nD) → (b : Ref sig .tc) → Buf (Elt Ideal) ((c : Thread nD τ).loc b))

theorem flushed_eq (c : Dev nD) (t : Fin cfg2.N) :
    (dat2 V c).flushed 3 t = ((cfg2.win 3).blk t).view.read (Elt Ideal) (denseClamped (V c main_v49) (V c main_v50) (V c main_v51)) := by
  show (cfg2.win 3).cut (grid2.coords t) ((dat2 V c).after 3 t) = _
  rw [after2_3]
  unfold out2_3
  rw [View.canon_unit_zero origin]
  simp only [View.ld_unit_zero (S := S5000x128) origin, View.ld_unit_zero (S := S128x128) origin, View.ld_unit_zero (S := S1x128) origin]
  obtain ⟨e0, e1, e2, e3, e4, e5, e6⟩ := placed t
  refine funext fun (j : S5000x128.Idx) => ?_
  obtain ⟨p, q, rfl⟩ : ∃ (p : Fin 5000) (q : Fin 128), j = ix2 p q := ⟨j 0, j 1, eq_ix2 j⟩
  refine (stored_apply (iblk2 V c 0 t) (iblk2 V c 1 t) (iblk2 V c 2 t) p q).trans ?_
  have hC : ((cfg2.win 2).blk t).view.emb (ix2 (0 : Fin 1) q)
      = ix2 (0 : Fin 1) (⟨((((cfg2.win 3).blk t).view.emb (ix2 p q)) 1).val, ((((cfg2.win 3).blk t).view.emb (ix2 p q)) 1).isLt⟩ : Fin 128) := by
    funext a; apply Fin.ext
    match a with
    | ⟨0, _⟩ => show win2_2.index t (0 : Fin 2) * 1 + 1 * 0 = 0; omega
    | ⟨1, _⟩ => show win2_2.index t (1 : Fin 2) * 128 + 1 * q.val = win2_3.index t (1 : Fin 2) * 128 + 1 * q.val; omega
  have hsum : (∑ k : Fin 128, entry (iblk2 V c 0 t (ix2 p k)) * entry (iblk2 V c 1 t (ix2 k q)))
      = ∑ k : Fin 128, entry (V c main_v49 (ix2 (⟨((((cfg2.win 3).blk t).view.emb (ix2 p q)) 0).val, ((((cfg2.win 3).blk t).view.emb (ix2 p q)) 0).isLt⟩ : Fin 50000) k))
          * entry (V c main_v50 (ix2 k (⟨((((cfg2.win 3).blk t).view.emb (ix2 p q)) 1).val, ((((cfg2.win 3).blk t).view.emb (ix2 p q)) 1).isLt⟩ : Fin 128))) := by
    refine Finset.sum_congr rfl fun k _ => ?_
    show entry (V c main_v49 (((cfg2.win 0).blk t).view.emb (ix2 p k))) * entry (V c main_v50 (((cfg2.win 1).blk t).view.emb (ix2 k q))) = _
    have hA : ((cfg2.win 0).blk t).view.emb (ix2 p k)
        = ix2 (⟨((((cfg2.win 3).blk t).view.emb (ix2 p q)) 0).val, ((((cfg2.win 3).blk t).view.emb (ix2 p q)) 0).isLt⟩ : Fin 50000) k := by
      funext a; apply Fin.ext
      match a with
      | ⟨0, _⟩ => show win2_0.index t (0 : Fin 2) * 5000 + 1 * p.val = win2_3.index t (0 : Fin 2) * 5000 + 1 * p.val; omega
      | ⟨1, _⟩ => show win2_0.index t (1 : Fin 2) * 128 + 1 * k.val = k.val; omega
    have hB : ((cfg2.win 1).blk t).view.emb (ix2 k q)
        = ix2 k (⟨((((cfg2.win 3).blk t).view.emb (ix2 p q)) 1).val, ((((cfg2.win 3).blk t).view.emb (ix2 p q)) 1).isLt⟩ : Fin 128) := by
      funext a; apply Fin.ext
      match a with
      | ⟨0, _⟩ => show win2_1.index t (0 : Fin 2) * 128 + 1 * k.val = k.val; omega
      | ⟨1, _⟩ => show win2_1.index t (1 : Fin 2) * 128 + 1 * q.val = win2_3.index t (1 : Fin 2) * 128 + 1 * q.val; omega
    rw [hA, hB]
  rw [hsum]
  show max (_ + entry (V c main_v51 (((cfg2.win 2).blk t).view.emb (ix2 (0 : Fin 1) q)))) _ = _
  rw [hC]
  rfl

/-- An index of the output array is in point `t`'s block iff each coordinate is in the block's range on its axis. -/
theorem mem_blk (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v52).slice (win2_3.rect t)).set ↔ _
  rw [View.set_slice_whole, Rect.mem_set_unit]
  exact Iff.rfl

/-- The blocks tile the output: row `r` lies in the block of point `r / 5000`. -/
theorem covered (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, ht⟩ := reached ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- THE OUTPUT ARRAY after the region, as one function of the arrays the region found. -/
theorem value (c : Dev nD) : (dat2 V c).arrAt 3 cfg2.N = denseClamped (V c main_v49) (V c main_v50) (V c main_v51) :=
  (dat2 V c).arrAt_eq_of_cover 3 _ (fun t _ => flushed_eq V c t) covered

end Cert.KernelIdeal.SelectedDense

end
-- ==== Proof.SecondProjection.lean ====
/-
  The second graph layer's dense product: the scattered hidden features against `W1`, row block by row block.

  The region runs over 20 grid points; point `t` stages rows `5000·t … 5000·t + 4999` of the left array
  (a `100000 × 128` array) and the whole right array (`128 × 128`), multiplies them into a zero accumulator and
  writes the `5000 × 128` result back as rows `5000·t …` of the output. Over the extended reals a product into a zero
  accumulator is the plain sum over the shared coordinate, so the block written at `t` is block `t` of ONE function of the
  two whole arrays: entry `(r, c)` is `∑ k, A (r, k) · B (k, c)`. The 20 blocks tile the output's rows (row `r` lies in
  the block of point `r / 5000`), so after the run the output array IS that function.
-/
import proofs.«100206_j64836826301092_1_alg».proof.Proof.Gen.KernelIdeal.Frame
import proofs.«100206_j64836826301092_1_alg».proof.Proof.LibDotSum
import Idealize.ShloMosaic.Lib.Pipeline.Value
import Idealize.ShloMosaic.Lib.ValueIdx
import Idealize.ShloMosaic.PureOps.Ideal.Laws

set_option maxRecDepth 16384

noncomputable section

namespace Cert.KernelIdeal.SecondProjection

open Cert.KernelIdeal Cert.KernelIdeal.Gen Idealize.ShloMosaic Idealize.ShloMosaic.TcCoe Idealize.ShloMosaic.ValueIdx Idealize.SL.Sem
open Idealize.ShloMosaic.Pipeline (Dat)

/-- An entry of a float array at the ideal instance IS an extended real; `entry` displays it as one. -/
abbrev entry (x : EReal) : EReal := x

/-- The origin of a two-axis rectangle. -/
theorem origin : (![0, 0] : Fin 2 → Nat) = fun _ => 0 := funext fun a => by fin_cases a <;> rfl

/-- Rows of `A` against columns of `B`: entry `(r, c)` is the sum over the shared coordinate `k` of `A (r, k) · B (k, c)`. -/
def rowsTimes (A : S100000x128.Idx → EReal) (B : S128x128.Idx → EReal) : S100000x128.Idx → EReal :=
  fun i => ∑ k : Fin 128, A (ix2 (⟨(i 0).val, (i 0).isLt⟩ : Fin 100000) k) * B (ix2 k (⟨(i 1).val, (i 1).isLt⟩ : Fin 128))

/-! ## The operand coordinates of the block product -/

theorem lhs0 (j : S5000x128.Idx) (k : dot_S5000x128_S128x128_S5000x128_1_0_0_1_n_n.contr.Idx) : (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs1 (j : S5000x128.Idx) (k : dot_S5000x128_S128x128_S5000x128_1_0_0_1_n_n.contr.Idx) : (dot_S5000x128_S128x128_S5000x128_1_0_0_1_n_n.lhsIdx j k 1).val = (k ⟨0, by decide⟩).val :=
  dot_S5000x128_S128x128_S5000x128_1_0_0_1_n_n.lhsIdx_val_of_single rfl j k
theorem rhs0 (j : S5000x128.Idx) (k : dot_S5000x128_S128x128_S5000x128_1_0_0_1_n_n.contr.Idx) : (dot_S5000x128_S128x128_S5000x128_1_0_0_1_n_n.rhsIdx j k 0).val = (k ⟨0, by decide⟩).val :=
  dot_S5000x128_S128x128_S5000x128_1_0_0_1_n_n.rhsIdx_val_of_single rfl j k
theorem rhs1 (j : S5000x128.Idx) (k : dot_S5000x128_S128x128_S5000x128_1_0_0_1_n_n.contr.Idx) : (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- What one point stores, at `(p, q)` of its block: the sum over the shared coordinate of the staged rows against the
    staged columns (the accumulator is the zero array). -/
theorem stored_apply (x0 : Vec Ideal S5000x128 .f32) (x1 : Vec Ideal S128x128 .f32) (p : Fin 5000) (q : Fin 128) :
    k3_pay1 (F := Ideal) x0 x1 (ix2 p q) = ∑ k : Fin 128, x0 (ix2 p k) * x1 (ix2 k q) := by
  have hcast : shapeCast S5000x128 x0 shapeCasts_S5000x128_S5000x128 = x0 := shapeCast_self x0 _
  unfold k3_pay1
  show FloatOps.matmul (F := Ideal) dot_S5000x128_S128x128_S5000x128_1_0_0_1_n_n none (shapeCast S5000x128 x0 shapeCasts_S5000x128_S5000x128) x1 (constant (F := Ideal) S5000x128 .f32 0x00000000#32) (ix2 p q) = _
  rw [hcast]
  refine (Ideal.matmul_constant_zero_apply dot_S5000x128_S128x128_S5000x128_1_0_0_1_n_n none x0 x1 (ix2 p q)).trans ?_
  exact Cert.LibDotSum.sum_dot dot_S5000x128_S128x128_S5000x128_1_0_0_1_n_n rfl rfl lhs0 lhs1 rhs0 rhs1 x0 x1 p q

/-! ## The block a point writes back is its block of `rowsTimes` -/

/-- Where the three windows sit at point `t`: the left operand's and the output's row blocks are block `t`, the right
    operand is staged whole. Decided over the 20 points. -/
theorem placed : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0 :=
  (by decide +kernel : ∀ t : Fin grid3.N, _)

/-- Every row block of the output is some point's. -/
theorem reached : ∀ b : Fin 20, ∃ t : Fin cfg3.N, win3_2.index t = ![b.val, 0] :=
  (by decide +kernel : ∀ b : Fin 20, ∃ t : Fin grid3.N, win3_2.index t = ![b.val, 0])

variable (V : (c : Dev nD) → (b : Ref sig .tc) → Buf (Elt Ideal) ((c : Thread nD τ).loc b))

theorem flushed_eq (c : Dev nD) (t : Fin cfg3.N) :
    (dat3 V c).flushed 2 t = ((cfg3.win 2).blk t).view.read (Elt Ideal) (rowsTimes (V c main_v60) (V c main_arg6)) := by
  show (cfg3.win 2).cut (grid3.coords t) ((dat3 V c).after 2 t) = _
  rw [after3_2]
  unfold out3_2
  rw [View.canon_unit_zero origin]
  simp only [View.ld_unit_zero (S := S5000x128) origin, View.ld_unit_zero (S := S128x128) origin]
  obtain ⟨e0, e1, e2, e3, e4⟩ := placed t
  refine funext fun (j : S5000x128.Idx) => ?_
  obtain ⟨p, q, rfl⟩ : ∃ (p : Fin 5000) (q : Fin 128), j = ix2 p q := ⟨j 0, j 1, eq_ix2 j⟩
  refine (stored_apply (iblk3 V c 0 t) (iblk3 V c 1 t) p q).trans ?_
  show (∑ k : Fin 128, entry (iblk3 V c 0 t (ix2 p k)) * entry (iblk3 V c 1 t (ix2 k q)))
    = ∑ k : Fin 128, entry (V c main_v60 (ix2 (⟨((((cfg3.win 2).blk t).view.emb (ix2 p q)) 0).val, ((((cfg3.win 2).blk t).view.emb (ix2 p q)) 0).isLt⟩ : Fin 100000) k))
      * entry (V c main_arg6 (ix2 k (⟨((((cfg3.win 2).blk t).view.emb (ix2 p q)) 1).val, ((((cfg3.win 2).blk t).view.emb (ix2 p q)) 1).isLt⟩ : Fin 128)))
  refine Finset.sum_congr rfl fun k _ => ?_
  show entry (V c main_v60 (((cfg3.win 0).blk t).view.emb (ix2 p k))) * entry (V c main_arg6 (((cfg3.win 1).blk t).view.emb (ix2 k q)))
    = entry (V c main_v60 (ix2 (⟨((((cfg3.win 2).blk t).view.emb (ix2 p q)) 0).val, ((((cfg3.win 2).blk t).view.emb (ix2 p q)) 0).isLt⟩ : Fin 100000) k))
      * entry (V c main_arg6 (ix2 k (⟨((((cfg3.win 2).blk t).view.emb (ix2 p q)) 1).val, ((((cfg3.win 2).blk t).view.emb (ix2 p q)) 1).isLt⟩ : Fin 128)))
  have hA : ((cfg3.win 0).blk t).view.emb (ix2 p k)
      = ix2 (⟨((((cfg3.win 2).blk t).view.emb (ix2 p q)) 0).val, ((((cfg3.win 2).blk t).view.emb (ix2 p q)) 0).isLt⟩ : Fin 100000) k := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 128 + 1 * k.val = k.val; omega
  have hB : ((cfg3.win 1).blk t).view.emb (ix2 k q)
      = ix2 k (⟨((((cfg3.win 2).blk t).view.emb (ix2 p q)) 1).val, ((((cfg3.win 2).blk t).view.emb (ix2 p q)) 1).isLt⟩ : Fin 128) := by
    funext a; apply Fin.ext
    match a with
    | ⟨0, _⟩ => show win3_1.index t (0 : Fin 2) * 128 + 1 * k.val = k.val; omega
    | ⟨1, _⟩ => show win3_1.index t (1 : Fin 2) * 128 + 1 * q.val = win3_2.index t (1 : Fin 2) * 128 + 1 * q.val; omega
  rw [hA, hB]

/-- An index of the output array is in point `t`'s block iff each coordinate is in the block's range on its axis. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v61).slice (win3_2.rect t)).set ↔ _
  rw [View.set_slice_whole, Rect.mem_set_unit]
  exact Iff.rfl

/-- The blocks tile the output: row `r` lies in the block of point `r / 5000`. -/
theorem covered (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := reached ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- THE OUTPUT ARRAY after the region: rows of the left array against columns of the right, as the region found them. -/
theorem value (c : Dev nD) : (dat3 V c).arrAt 2 cfg3.N = rowsTimes (V c main_v60) (V c main_arg6) :=
  (dat3 V c).arrAt_eq_of_cover 2 _ (fun t _ => flushed_eq V c t) covered

end Cert.KernelIdeal.SecondProjection

end
-- ==== Proof.SecondBias.lean ====
/-
  The second graph layer's bias and ReLU, row block by row block.

  The region runs over 20 grid points; point `t` stages rows `5000·t … 5000·t + 4999` of a `100000 × 128` array and the
  whole one-row bias `1 × 128`, and writes back, for each staged entry, the entry plus the bias of its column, clamped below at zero. That is block `t` of ONE
  function of the two whole arrays, entry by entry, and the 20 blocks tile the rows, so after the run the output array IS that
  function. Adding and taking a maximum are pointwise, so no property of the numbers is used.
-/
import proofs.«100206_j64836826301092_1_alg».proof.Proof.Gen.KernelIdeal.Frame
import proofs.«100206_j64836826301092_1_alg».proof.Proof.LibDotSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.SecondBias

open Cert.KernelIdeal Cert.KernelIdeal.Gen Idealize.ShloMosaic Idealize.ShloMosaic.TcCoe Idealize.ShloMosaic.ValueIdx Idealize.SL.Sem
open Idealize.ShloMosaic.Pipeline (Dat)

/-- An entry of a float array at the ideal instance IS an extended real; `entry` displays it as one. -/
abbrev entry (x : EReal) : EReal := x

/-- The origin of a two-axis rectangle. -/
theorem origin : (![0, 0] : Fin 2 → Nat) = fun _ => 0 := funext fun a => by fin_cases a <;> rfl

/-- Entry `(r, c)` of the array plus the bias row's entry `c`, clamped below at zero. -/
def rowPlusClamped (A : S100000x128.Idx → EReal) (b : S1x128.Idx → EReal) : S100000x128.Idx → EReal :=
  fun i => max (A i + b (ix2 (0 : Fin 1) (⟨(i 1).val, (i 1).isLt⟩ : Fin 128))) (Ideal.ofBits .f32 0x00000000#32)

/-- What one point stores, at `(p, q)` of its block. -/
theorem stored_apply (x0 : Vec Ideal S5000x128 .f32) (x1 : Vec Ideal S1x128 .f32) (p : Fin 5000) (q : Fin 128) :
    k4_pay1 (F := Ideal) x0 x1 (ix2 p q) = max (x0 (ix2 p q) + x1 (ix2 (0 : Fin 1) q)) (Ideal.ofBits .f32 0x00000000#32) := by
  have h0 : shapeCast S5000x128 x0 shapeCasts_S5000x128_S5000x128 = x0 := shapeCast_self x0 _
  have h1 : shapeCast S1x128 x1 shapeCasts_S1x128_S1x128 = x1 := shapeCast_self x1 _
  have hb : broadcastTo S5000x128 x1 broadcasts_S1x128_S5000x128 (ix2 p q) = x1 (ix2 (0 : Fin 1) q) :=
    broadcastTo_1b_ab_apply x1 broadcasts_S1x128_S5000x128 p q
  unfold k4_pay1
  show max ((shapeCast S5000x128 x0 shapeCasts_S5000x128_S5000x128) (ix2 p q)
        + (broadcastTo S5000x128 (shapeCast S1x128 x1 shapeCasts_S1x128_S1x128) broadcasts_S1x128_S5000x128) (ix2 p q)) (Ideal.ofBits .f32 0x00000000#32) = _
  rw [h0, h1, hb]

/-! ## The block a point writes back is its block of `rowPlusClamped` -/

/-- Where the three windows sit at point `t`: the input's and the output's row blocks coincide, the bias row is staged
    whole. Decided over the 20 points. -/
theorem placed : ∀ t : Fin cfg4.N, win4_0.index t (0 : Fin 2) = win4_2.index t (0 : Fin 2)
    ∧ win4_0.index t (1 : Fin 2) = win4_2.index t (1 : Fin 2)
    ∧ win4_1.index t (0 : Fin 2) = 0
    ∧ win4_1.index t (1 : Fin 2) = 0
    ∧ win4_2.index t (1 : Fin 2) = 0 :=
  (by decide +kernel : ∀ t : Fin grid4.N, _)

/-- Every row block of the output is some point's. -/
theorem reached : ∀ b : Fin 20, ∃ t : Fin cfg4.N, win4_2.index t = ![b.val, 0] :=
  (by decide +kernel : ∀ b : Fin 20, ∃ t : Fin grid4.N, win4_2.index t = ![b.val, 0])

variable (V : (c : Dev nD) → (b : Ref sig .tc) → Buf (Elt Ideal) ((c : Thread nD τ).loc b))

theorem flushed_eq (c : Dev nD) (t : Fin cfg4.N) :
    (dat4 V c).flushed 2 t = ((cfg4.win 2).blk t).view.read (Elt Ideal) (rowPlusClamped (V c main_v74) (V c main_v75)) := by
  show (cfg4.win 2).cut (grid4.coords t) ((dat4 V c).after 2 t) = _
  rw [after4_2]
  unfold out4_2
  rw [View.canon_unit_zero origin]
  simp only [View.ld_unit_zero (S := S5000x128) origin, View.ld_unit_zero (S := S1x128) origin]
  obtain ⟨e0, e1, e2, e3, e4⟩ := placed t
  refine funext fun (j : S5000x128.Idx) => ?_
  obtain ⟨p, q, rfl⟩ : ∃ (p : Fin 5000) (q : Fin 128), j = ix2 p q := ⟨j 0, j 1, eq_ix2 j⟩
  refine (stored_apply (iblk4 V c 0 t) (iblk4 V c 1 t) p q).trans ?_
  show max (entry (V c main_v74 (((cfg4.win 0).blk t).view.emb (ix2 p q))) + entry (V c main_v75 (((cfg4.win 1).blk t).view.emb (ix2 (0 : Fin 1) q)))) (Ideal.ofBits .f32 0x00000000#32)
    = max (entry (V c main_v74 (((cfg4.win 2).blk t).view.emb (ix2 p q)))
      + entry (V c main_v75 (ix2 (0 : Fin 1) (⟨((((cfg4.win 2).blk t).view.emb (ix2 p q)) 1).val, ((((cfg4.win 2).blk t).view.emb (ix2 p q)) 1).isLt⟩ : Fin 128)))) (Ideal.ofBits .f32 0x00000000#32)
  have hA : ((cfg4.win 0).blk t).view.emb (ix2 p q) = ((cfg4.win 2).blk t).view.emb (ix2 p q) := by
    funext a; apply Fin.ext
    match a with
    | ⟨0, _⟩ => show win4_0.index t (0 : Fin 2) * 5000 + 1 * p.val = win4_2.index t (0 : Fin 2) * 5000 + 1 * p.val; omega
    | ⟨1, _⟩ => show win4_0.index t (1 : Fin 2) * 128 + 1 * q.val = win4_2.index t (1 : Fin 2) * 128 + 1 * q.val; omega
  have hB : ((cfg4.win 1).blk t).view.emb (ix2 (0 : Fin 1) q)
      = ix2 (0 : Fin 1) (⟨((((cfg4.win 2).blk t).view.emb (ix2 p q)) 1).val, ((((cfg4.win 2).blk t).view.emb (ix2 p q)) 1).isLt⟩ : Fin 128) := by
    funext a; apply Fin.ext
    match a with
    | ⟨0, _⟩ => show win4_1.index t (0 : Fin 2) * 1 + 1 * 0 = 0; omega
    | ⟨1, _⟩ => show win4_1.index t (1 : Fin 2) * 128 + 1 * q.val = win4_2.index t (1 : Fin 2) * 128 + 1 * q.val; omega
  rw [hA, hB]

/-- An index of the output array is in point `t`'s block iff each coordinate is in the block's range on its axis. -/
theorem mem_blk (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v76).slice (win4_2.rect t)).set ↔ _
  rw [View.set_slice_whole, Rect.mem_set_unit]
  exact Iff.rfl

/-- The blocks tile the output: row `r` lies in the block of point `r / 5000`. -/
theorem covered (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ := reached ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- THE OUTPUT ARRAY after the region, as one function of the arrays the region found. -/
theorem value (c : Dev nD) : (dat4 V c).arrAt 2 cfg4.N = rowPlusClamped (V c main_v74) (V c main_v75) :=
  (dat4 V c).arrAt_eq_of_cover 2 _ (fun t _ => flushed_eq V c t) covered

end Cert.KernelIdeal.SecondBias

end
-- ==== Proof.LastProjection.lean ====
/-
  The last graph layer's dense product: the hidden features against the one column `W2`, row block by row block.

  The region runs over 20 grid points; point `t` stages rows `5000·t … 5000·t + 4999` of the left array
  (a `100000 × 128` array) and the whole right array (`128 × 1`), multiplies them into a zero accumulator and
  writes the `5000 × 1` result back as rows `5000·t …` of the output. Over the extended reals a product into a zero
  accumulator is the plain sum over the shared coordinate, so the block written at `t` is block `t` of ONE function of the
  two whole arrays: entry `(r, c)` is `∑ k, A (r, k) · B (k, c)`. The 20 blocks tile the output's rows (row `r` lies in
  the block of point `r / 5000`), so after the run the output array IS that function.
-/
import proofs.«100206_j64836826301092_1_alg».proof.Proof.Gen.KernelIdeal.Frame
import proofs.«100206_j64836826301092_1_alg».proof.Proof.LibDotSum
import Idealize.ShloMosaic.Lib.Pipeline.Value
import Idealize.ShloMosaic.Lib.ValueIdx
import Idealize.ShloMosaic.PureOps.Ideal.Laws

set_option maxRecDepth 16384

noncomputable section

namespace Cert.KernelIdeal.LastProjection

open Cert.KernelIdeal Cert.KernelIdeal.Gen Idealize.ShloMosaic Idealize.ShloMosaic.TcCoe Idealize.ShloMosaic.ValueIdx Idealize.SL.Sem
open Idealize.ShloMosaic.Pipeline (Dat)

/-- An entry of a float array at the ideal instance IS an extended real; `entry` displays it as one. -/
abbrev entry (x : EReal) : EReal := x

/-- The origin of a two-axis rectangle. -/
theorem origin : (![0, 0] : Fin 2 → Nat) = fun _ => 0 := funext fun a => by fin_cases a <;> rfl

/-- Rows of `A` against columns of `B`: entry `(r, c)` is the sum over the shared coordinate `k` of `A (r, k) · B (k, c)`. -/
def rowsTimes (A : S100000x128.Idx → EReal) (B : S128x1.Idx → EReal) : S100000x1.Idx → EReal :=
  fun i => ∑ k : Fin 128, A (ix2 (⟨(i 0).val, (i 0).isLt⟩ : Fin 100000) k) * B (ix2 k (⟨(i 1).val, (i 1).isLt⟩ : Fin 1))

/-! ## The operand coordinates of the block product -/

theorem lhs0 (j : S5000x1.Idx) (k : dot_S5000x128_S128x1_S5000x1_1_0_0_1_n_n.contr.Idx) : (dot_S5000x128_S128x1_S5000x1_1_0_0_1_n_n.lhsIdx j k 0).val = (j 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
theorem lhs1 (j : S5000x1.Idx) (k : dot_S5000x128_S128x1_S5000x1_1_0_0_1_n_n.contr.Idx) : (dot_S5000x128_S128x1_S5000x1_1_0_0_1_n_n.lhsIdx j k 1).val = (k ⟨0, by decide⟩).val :=
  dot_S5000x128_S128x1_S5000x1_1_0_0_1_n_n.lhsIdx_val_of_single rfl j k
theorem rhs0 (j : S5000x1.Idx) (k : dot_S5000x128_S128x1_S5000x1_1_0_0_1_n_n.contr.Idx) : (dot_S5000x128_S128x1_S5000x1_1_0_0_1_n_n.rhsIdx j k 0).val = (k ⟨0, by decide⟩).val :=
  dot_S5000x128_S128x1_S5000x1_1_0_0_1_n_n.rhsIdx_val_of_single rfl j k
theorem rhs1 (j : S5000x1.Idx) (k : dot_S5000x128_S128x1_S5000x1_1_0_0_1_n_n.contr.Idx) : (dot_S5000x128_S128x1_S5000x1_1_0_0_1_n_n.rhsIdx j k 1).val = (j 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- What one point stores, at `(p, q)` of its block: the sum over the shared coordinate of the staged rows against the
    staged columns (the accumulator is the zero array). -/
theorem stored_apply (x0 : Vec Ideal S5000x128 .f32) (x1 : Vec Ideal S128x1 .f32) (p : Fin 5000) (q : Fin 1) :
    k5_pay1 (F := Ideal) x0 x1 (ix2 p q) = ∑ k : Fin 128, x0 (ix2 p k) * x1 (ix2 k q) := by
  have hcast : shapeCast S5000x128 x0 shapeCasts_S5000x128_S5000x128 = x0 := shapeCast_self x0 _
  unfold k5_pay1
  show FloatOps.matmul (F := Ideal) dot_S5000x128_S128x1_S5000x1_1_0_0_1_n_n none (shapeCast S5000x128 x0 shapeCasts_S5000x128_S5000x128) x1 (constant (F := Ideal) S5000x1 .f32 0x00000000#32) (ix2 p q) = _
  rw [hcast]
  refine (Ideal.matmul_constant_zero_apply dot_S5000x128_S128x1_S5000x1_1_0_0_1_n_n none x0 x1 (ix2 p q)).trans ?_
  exact Cert.LibDotSum.sum_dot dot_S5000x128_S128x1_S5000x1_1_0_0_1_n_n rfl rfl lhs0 lhs1 rhs0 rhs1 x0 x1 p q

/-! ## The block a point writes back is its block of `rowsTimes` -/

/-- Where the three windows sit at point `t`: the left operand's and the output's row blocks are block `t`, the right
    operand is staged whole. Decided over the 20 points. -/
theorem placed : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (1 : Fin 2) = 0 :=
  (by decide +kernel : ∀ t : Fin grid5.N, _)

/-- Every row block of the output is some point's. -/
theorem reached : ∀ b : Fin 20, ∃ t : Fin cfg5.N, win5_2.index t = ![b.val, 0] :=
  (by decide +kernel : ∀ b : Fin 20, ∃ t : Fin grid5.N, win5_2.index t = ![b.val, 0])

variable (V : (c : Dev nD) → (b : Ref sig .tc) → Buf (Elt Ideal) ((c : Thread nD τ).loc b))

theorem flushed_eq (c : Dev nD) (t : Fin cfg5.N) :
    (dat5 V c).flushed 2 t = ((cfg5.win 2).blk t).view.read (Elt Ideal) (rowsTimes (V c main_v76) (V c main_arg8)) := by
  show (cfg5.win 2).cut (grid5.coords t) ((dat5 V c).after 2 t) = _
  rw [after5_2]
  unfold out5_2
  rw [View.canon_unit_zero origin]
  simp only [View.ld_unit_zero (S := S5000x128) origin, View.ld_unit_zero (S := S128x1) origin]
  obtain ⟨e0, e1, e2, e3, e4⟩ := placed t
  refine funext fun (j : S5000x1.Idx) => ?_
  obtain ⟨p, q, rfl⟩ : ∃ (p : Fin 5000) (q : Fin 1), j = ix2 p q := ⟨j 0, j 1, eq_ix2 j⟩
  refine (stored_apply (iblk5 V c 0 t) (iblk5 V c 1 t) p q).trans ?_
  show (∑ k : Fin 128, entry (iblk5 V c 0 t (ix2 p k)) * entry (iblk5 V c 1 t (ix2 k q)))
    = ∑ k : Fin 128, entry (V c main_v76 (ix2 (⟨((((cfg5.win 2).blk t).view.emb (ix2 p q)) 0).val, ((((cfg5.win 2).blk t).view.emb (ix2 p q)) 0).isLt⟩ : Fin 100000) k))
      * entry (V c main_arg8 (ix2 k (⟨((((cfg5.win 2).blk t).view.emb (ix2 p q)) 1).val, ((((cfg5.win 2).blk t).view.emb (ix2 p q)) 1).isLt⟩ : Fin 1)))
  refine Finset.sum_congr rfl fun k _ => ?_
  show entry (V c main_v76 (((cfg5.win 0).blk t).view.emb (ix2 p k))) * entry (V c main_arg8 (((cfg5.win 1).blk t).view.emb (ix2 k q)))
    = entry (V c main_v76 (ix2 (⟨((((cfg5.win 2).blk t).view.emb (ix2 p q)) 0).val, ((((cfg5.win 2).blk t).view.emb (ix2 p q)) 0).isLt⟩ : Fin 100000) k))
      * entry (V c main_arg8 (ix2 k (⟨((((cfg5.win 2).blk t).view.emb (ix2 p q)) 1).val, ((((cfg5.win 2).blk t).view.emb (ix2 p q)) 1).isLt⟩ : Fin 1)))
  have hA : ((cfg5.win 0).blk t).view.emb (ix2 p k)
      = ix2 (⟨((((cfg5.win 2).blk t).view.emb (ix2 p q)) 0).val, ((((cfg5.win 2).blk t).view.emb (ix2 p q)) 0).isLt⟩ : Fin 100000) k := by
    funext a; apply Fin.ext
    match a with
    | ⟨0, _⟩ => show win5_0.index t (0 : Fin 2) * 5000 + 1 * p.val = win5_2.index t (0 : Fin 2) * 5000 + 1 * p.val; omega
    | ⟨1, _⟩ => show win5_0.index t (1 : Fin 2) * 128 + 1 * k.val = k.val; omega
  have hB : ((cfg5.win 1).blk t).view.emb (ix2 k q)
      = ix2 k (⟨((((cfg5.win 2).blk t).view.emb (ix2 p q)) 1).val, ((((cfg5.win 2).blk t).view.emb (ix2 p q)) 1).isLt⟩ : Fin 1) := by
    funext a; apply Fin.ext
    match a with
    | ⟨0, _⟩ => show win5_1.index t (0 : Fin 2) * 128 + 1 * k.val = k.val; omega
    | ⟨1, _⟩ => show win5_1.index t (1 : Fin 2) * 1 + 1 * q.val = win5_2.index t (1 : Fin 2) * 1 + 1 * q.val; omega
  rw [hA, hB]

/-- An index of the output array is in point `t`'s block iff each coordinate is in the block's range on its axis. -/
theorem mem_blk (t : Fin cfg5.N) (i : S100000x1.Idx) :
    i ∈ ((cfg5.win 2).blk t).view.set ↔ ∀ a : Fin 2, win5_2.index t a * S5000x1.size a ≤ (i a).val ∧ (i a).val < win5_2.index t a * S5000x1.size a + S5000x1.size a := by
  show i ∈ ((View.whole main_v77).slice (win5_2.rect t)).set ↔ _
  rw [View.set_slice_whole, Rect.mem_set_unit]
  exact Iff.rfl

/-- The blocks tile the output: row `r` lies in the block of point `r / 5000`. -/
theorem covered (i : S100000x1.Idx) : ∃ t : Fin cfg5.N, (cfg5.win 2).flush t = true ∧ i ∈ ((cfg5.win 2).blk t).view.set := by
  have hi0 : (i 0).val < 100000 := (i 0).isLt
  have hi1 : (i 1).val < 1 := (i 1).isLt
  obtain ⟨t, ht⟩ := reached ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_blk]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 1 ≤ (i 1).val ∧ (i 1).val < win5_2.index t (1 : Fin 2) * 1 + 1; omega

/-- THE OUTPUT ARRAY after the region: rows of the left array against columns of the right, as the region found them. -/
theorem value (c : Dev nD) : (dat5 V c).arrAt 2 cfg5.N = rowsTimes (V c main_v76) (V c main_arg8) :=
  (dat5 V c).arrAt_eq_of_cover 2 _ (fun t _ => flushed_eq V c t) covered

end Cert.KernelIdeal.LastProjection

end
-- ==== Proof.LastBias.lean ====
/-
  The last graph layer's bias (no ReLU), row block by row block.

  The region runs over 20 grid points; point `t` stages rows `5000·t … 5000·t + 4999` of a `100000 × 1` array and the
  whole one-row bias `1 × 1`, and writes back, for each staged entry, the entry plus the bias of its column. That is block `t` of ONE
  function of the two whole arrays, entry by entry, and the 20 blocks tile the rows, so after the run the output array IS that
  function. Adding and taking a maximum are pointwise, so no property of the numbers is used.
-/
import proofs.«100206_j64836826301092_1_alg».proof.Proof.Gen.KernelIdeal.Frame
import proofs.«100206_j64836826301092_1_alg».proof.Proof.LibDotSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LastBias

open Cert.KernelIdeal Cert.KernelIdeal.Gen Idealize.ShloMosaic Idealize.ShloMosaic.TcCoe Idealize.ShloMosaic.ValueIdx Idealize.SL.Sem
open Idealize.ShloMosaic.Pipeline (Dat)

/-- An entry of a float array at the ideal instance IS an extended real; `entry` displays it as one. -/
abbrev entry (x : EReal) : EReal := x

/-- The origin of a two-axis rectangle. -/
theorem origin : (![0, 0] : Fin 2 → Nat) = fun _ => 0 := funext fun a => by fin_cases a <;> rfl

/-- Entry `(r, c)` of the array plus the bias row's entry `c`. -/
def rowPlus (A : S100000x1.Idx → EReal) (b : S1x1.Idx → EReal) : S100000x1.Idx → EReal :=
  fun i => A i + b (ix2 (0 : Fin 1) (⟨(i 1).val, (i 1).isLt⟩ : Fin 1))

/-- What one point stores, at `(p, q)` of its block. -/
theorem stored_apply (x0 : Vec Ideal S5000x1 .f32) (x1 : Vec Ideal S1x1 .f32) (p : Fin 5000) (q : Fin 1) :
    k6_pay1 (F := Ideal) x0 x1 (ix2 p q) = x0 (ix2 p q) + x1 (ix2 (0 : Fin 1) q) := by
  have h0 : shapeCast S5000x1 x0 shapeCasts_S5000x1_S5000x1 = x0 := shapeCast_self x0 _
  have h1 : shapeCast S1x1 x1 shapeCasts_S1x1_S1x1 = x1 := shapeCast_self x1 _
  have hb : broadcastTo S5000x1 x1 broadcasts_S1x1_S5000x1 (ix2 p q) = x1 (ix2 (0 : Fin 1) q) :=
    broadcastTo_1b_ab_apply x1 broadcasts_S1x1_S5000x1 p q
  unfold k6_pay1
  show (shapeCast S5000x1 x0 shapeCasts_S5000x1_S5000x1) (ix2 p q)
        + (broadcastTo S5000x1 (shapeCast S1x1 x1 shapeCasts_S1x1_S1x1) broadcasts_S1x1_S5000x1) (ix2 p q) = _
  rw [h0, h1, hb]

/-! ## The block a point writes back is its block of `rowPlus` -/

/-- Where the three windows sit at point `t`: the input's and the output's row blocks coincide, the bias row is staged
    whole. Decided over the 20 points. -/
theorem placed : ∀ t : Fin cfg6.N, win6_0.index t (0 : Fin 2) = win6_2.index t (0 : Fin 2)
    ∧ win6_0.index t (1 : Fin 2) = win6_2.index t (1 : Fin 2)
    ∧ win6_1.index t (0 : Fin 2) = 0
    ∧ win6_1.index t (1 : Fin 2) = 0
    ∧ win6_2.index t (1 : Fin 2) = 0 :=
  (by decide +kernel : ∀ t : Fin grid6.N, _)

/-- Every row block of the output is some point's. -/
theorem reached : ∀ b : Fin 20, ∃ t : Fin cfg6.N, win6_2.index t = ![b.val, 0] :=
  (by decide +kernel : ∀ b : Fin 20, ∃ t : Fin grid6.N, win6_2.index t = ![b.val, 0])

variable (V : (c : Dev nD) → (b : Ref sig .tc) → Buf (Elt Ideal) ((c : Thread nD τ).loc b))

theorem flushed_eq (c : Dev nD) (t : Fin cfg6.N) :
    (dat6 V c).flushed 2 t = ((cfg6.win 2).blk t).view.read (Elt Ideal) (rowPlus (V c main_v89) (V c main_v90)) := by
  show (cfg6.win 2).cut (grid6.coords t) ((dat6 V c).after 2 t) = _
  rw [after6_2]
  unfold out6_2
  rw [View.canon_unit_zero origin]
  simp only [View.ld_unit_zero (S := S5000x1) origin, View.ld_unit_zero (S := S1x1) origin]
  obtain ⟨e0, e1, e2, e3, e4⟩ := placed t
  refine funext fun (j : S5000x1.Idx) => ?_
  obtain ⟨p, q, rfl⟩ : ∃ (p : Fin 5000) (q : Fin 1), j = ix2 p q := ⟨j 0, j 1, eq_ix2 j⟩
  refine (stored_apply (iblk6 V c 0 t) (iblk6 V c 1 t) p q).trans ?_
  show entry (V c main_v89 (((cfg6.win 0).blk t).view.emb (ix2 p q))) + entry (V c main_v90 (((cfg6.win 1).blk t).view.emb (ix2 (0 : Fin 1) q)))
    = entry (V c main_v89 (((cfg6.win 2).blk t).view.emb (ix2 p q)))
      + entry (V c main_v90 (ix2 (0 : Fin 1) (⟨((((cfg6.win 2).blk t).view.emb (ix2 p q)) 1).val, ((((cfg6.win 2).blk t).view.emb (ix2 p q)) 1).isLt⟩ : Fin 1)))
  have hA : ((cfg6.win 0).blk t).view.emb (ix2 p q) = ((cfg6.win 2).blk t).view.emb (ix2 p q) := by
    funext a; apply Fin.ext
    match a with
    | ⟨0, _⟩ => show win6_0.index t (0 : Fin 2) * 5000 + 1 * p.val = win6_2.index t (0 : Fin 2) * 5000 + 1 * p.val; omega
    | ⟨1, _⟩ => show win6_0.index t (1 : Fin 2) * 1 + 1 * q.val = win6_2.index t (1 : Fin 2) * 1 + 1 * q.val; omega
  have hB : ((cfg6.win 1).blk t).view.emb (ix2 (0 : Fin 1) q)
      = ix2 (0 : Fin 1) (⟨((((cfg6.win 2).blk t).view.emb (ix2 p q)) 1).val, ((((cfg6.win 2).blk t).view.emb (ix2 p q)) 1).isLt⟩ : Fin 1) := by
    funext a; apply Fin.ext
    match a with
    | ⟨0, _⟩ => show win6_1.index t (0 : Fin 2) * 1 + 1 * 0 = 0; omega
    | ⟨1, _⟩ => show win6_1.index t (1 : Fin 2) * 1 + 1 * q.val = win6_2.index t (1 : Fin 2) * 1 + 1 * q.val; omega
  rw [hA, hB]

/-- An index of the output array is in point `t`'s block iff each coordinate is in the block's range on its axis. -/
theorem mem_blk (t : Fin cfg6.N) (i : S100000x1.Idx) :
    i ∈ ((cfg6.win 2).blk t).view.set ↔ ∀ a : Fin 2, win6_2.index t a * S5000x1.size a ≤ (i a).val ∧ (i a).val < win6_2.index t a * S5000x1.size a + S5000x1.size a := by
  show i ∈ ((View.whole main_v91).slice (win6_2.rect t)).set ↔ _
  rw [View.set_slice_whole, Rect.mem_set_unit]
  exact Iff.rfl

/-- The blocks tile the output: row `r` lies in the block of point `r / 5000`. -/
theorem covered (i : S100000x1.Idx) : ∃ t : Fin cfg6.N, (cfg6.win 2).flush t = true ∧ i ∈ ((cfg6.win 2).blk t).view.set := by
  have hi0 : (i 0).val < 100000 := (i 0).isLt
  have hi1 : (i 1).val < 1 := (i 1).isLt
  obtain ⟨t, ht⟩ := reached ⟨(i 0).val / 5000, by omega⟩
  have q0 : win6_2.index t (0 : Fin 2) = (i 0).val / 5000 := congrFun ht 0
  have q1 : win6_2.index t (1 : Fin 2) = 0 := congrFun ht 1
  refine ⟨t, flush6_2 t, ?_⟩
  rw [mem_blk]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 1 ≤ (i 1).val ∧ (i 1).val < win6_2.index t (1 : Fin 2) * 1 + 1; omega

/-- THE OUTPUT ARRAY after the region, as one function of the arrays the region found. -/
theorem value (c : Dev nD) : (dat6 V c).arrAt 2 cfg6.N = rowPlus (V c main_v89) (V c main_v90) :=
  (dat6 V c).arrAt_eq_of_cover 2 _ (fun t _ => flushed_eq V c t) covered

end Cert.KernelIdeal.LastBias

end
-- ==== Proof.Stages.lean ====
/-
  The kernel program, boundary by boundary, against the reference's stages.

  Both programs are the same pipeline of host operations — the degree sums, the symmetric normalisation, the three
  gather / scale / scatter-add message passes, the row gather and the row scatter around the fully connected layer — and
  differ only where the kernel program runs a tiled region in place of the reference's host product, bias addition and
  clamp. First, for ANY arrays, each region's whole-array function (the region modules) is the reference's operations on
  those arrays: the rows-times-columns sums are the host product read at an entry, and the bias row's entry under a column
  is the repeated bias vector's entry there. Then the kernel program's buffers are followed through its segments: after a
  stretch of host operations a buffer holds those operations applied to what the stretch found, after a region its output
  array holds the region's function of what it found, and each buffer that is still read later is the reference's stage of
  the SAME arguments. Sums, maxima and products are only ever compared with themselves, so no finiteness is used.
-/
import proofs.«100206_j64836826301092_1_alg».proof.Proof.Gen.KernelIdeal.Frame
import proofs.«100206_j64836826301092_1_alg».proof.Proof.Gen.ReferenceIdeal.Read
import proofs.«100206_j64836826301092_1_alg».proof.Proof.RowLaws
import proofs.«100206_j64836826301092_1_alg».proof.Proof.Kept
import proofs.«100206_j64836826301092_1_alg».proof.Proof.EdgeFactor
import proofs.«100206_j64836826301092_1_alg».proof.Proof.InputProjection
import proofs.«100206_j64836826301092_1_alg».proof.Proof.FirstBias
import proofs.«100206_j64836826301092_1_alg».proof.Proof.SelectedDense
import proofs.«100206_j64836826301092_1_alg».proof.Proof.SecondProjection
import proofs.«100206_j64836826301092_1_alg».proof.Proof.SecondBias
import proofs.«100206_j64836826301092_1_alg».proof.Proof.LastProjection
import proofs.«100206_j64836826301092_1_alg».proof.Proof.LastBias
import Idealize.ShloMosaic.Lib.StableHlo.Run

set_option maxRecDepth 16384
set_option maxHeartbeats 4000000

noncomputable section

namespace Cert.KernelIdeal.Stages

open Cert.KernelIdeal Cert.KernelIdeal.Gen Idealize.ShloMosaic Idealize.ShloMosaic.TcCoe Idealize.ShloMosaic.ValueIdx Idealize.SL.Sem

/-- An entry of a float array at the ideal instance IS an extended real; `entry` displays it as one. -/
abbrev entry (x : EReal) : EReal := x

/-! ## The bias row under an entry is the repeated bias vector at it -/

theorem bias1_at (b : (⟨S128, .f32⟩ : BufTy).Contents (Elt Ideal)) (i : S100000x128.Idx) :
    shapeCast S1x128 b shapeCasts_S128_S1x128 (ix2 (0 : Fin 1) (⟨(i 1).val, (i 1).isLt⟩ : Fin 128)) = Cert.ReferenceIdeal.Read.val_main_v42 (F := Ideal) b i :=
  Cert.RowLaws.bias_entry b shapeCasts_S128_S1x128 _ _ i
theorem biasFc_at (b : (⟨S128, .f32⟩ : BufTy).Contents (Elt Ideal)) (i : S50000x128.Idx) :
    shapeCast S1x128 b shapeCasts_S128_S1x128 (ix2 (0 : Fin 1) (⟨(i 1).val, (i 1).isLt⟩ : Fin 128)) = Cert.ReferenceIdeal.Read.val_main_v55 (F := Ideal) b i :=
  Cert.RowLaws.bias_entry b shapeCasts_S128_S1x128 _ _ i
theorem bias2_at (b : (⟨S128, .f32⟩ : BufTy).Contents (Elt Ideal)) (i : S100000x128.Idx) :
    shapeCast S1x128 b shapeCasts_S128_S1x128 (ix2 (0 : Fin 1) (⟨(i 1).val, (i 1).isLt⟩ : Fin 128)) = Cert.ReferenceIdeal.Read.val_main_v81 (F := Ideal) b i :=
  Cert.RowLaws.bias_entry b shapeCasts_S128_S1x128 _ _ i
theorem bias3_at (b : (⟨S1, .f32⟩ : BufTy).Contents (Elt Ideal)) (i : S100000x1.Idx) :
    shapeCast S1x1 b shapeCasts_S1_S1x1 (ix2 (0 : Fin 1) (⟨(i 1).val, (i 1).isLt⟩ : Fin 1)) = Cert.ReferenceIdeal.Read.val_main_v98 (F := Ideal) b i :=
  Cert.RowLaws.bias_entry b shapeCasts_S1_S1x1 _ _ i

/-! ## Each region's whole-array function is the reference's operations, for any arrays -/

/-- Rows against columns is the host product (first layer). -/
theorem proj1_of (A : (⟨S100000x1, .f32⟩ : BufTy).Contents (Elt Ideal)) (B : (⟨S1x128, .f32⟩ : BufTy).Contents (Elt Ideal)) :
    InputProjection.rowsTimes A B = Cert.ReferenceIdeal.Read.val_main_v27 (F := Ideal) A B := by
  funext i
  exact (Cert.RowLaws.host_dot_apply Cert.ReferenceIdeal.dot_S100000x1_S1x128_S100000x128_1_0_0_1_n_n rfl rfl Cert.ReferenceIdeal.Read.lhs_main_v27_0 Cert.ReferenceIdeal.Read.lhs_main_v27_1 Cert.ReferenceIdeal.Read.rhs_main_v27_0 Cert.ReferenceIdeal.Read.rhs_main_v27_1 A B i).symm

/-- Rows against columns is the host product (second layer). -/
theorem proj2_of (A : FVec Ideal S100000x128 .f32) (B : FVec Ideal S128x128 .f32) :
    SecondProjection.rowsTimes A B = Host.dotGeneral (F := Ideal) Cert.ReferenceIdeal.dot_S100000x128_S128x128_S100000x128_1_0_0_1_n_n none A B := by
  funext i
  exact (Cert.RowLaws.host_dot_apply Cert.ReferenceIdeal.dot_S100000x128_S128x128_S100000x128_1_0_0_1_n_n rfl rfl Cert.ReferenceIdeal.Read.lhs_main_v66_0 Cert.ReferenceIdeal.Read.lhs_main_v66_1 Cert.ReferenceIdeal.Read.rhs_main_v66_0 Cert.ReferenceIdeal.Read.rhs_main_v66_1 A B i).symm

/-- Rows against columns is the host product (last layer). -/
theorem proj3_of (A : FVec Ideal S100000x128 .f32) (B : FVec Ideal S128x1 .f32) :
    LastProjection.rowsTimes A B = Host.dotGeneral (F := Ideal) Cert.ReferenceIdeal.dot_S100000x128_S128x1_S100000x1_1_0_0_1_n_n none A B := by
  funext i
  exact (Cert.RowLaws.host_dot_apply Cert.ReferenceIdeal.dot_S100000x128_S128x1_S100000x1_1_0_0_1_n_n rfl rfl Cert.ReferenceIdeal.Read.lhs_main_v84_0 Cert.ReferenceIdeal.Read.lhs_main_v84_1 Cert.ReferenceIdeal.Read.rhs_main_v84_0 Cert.ReferenceIdeal.Read.rhs_main_v84_1 A B i).symm

/-- Bias and clamp, entry by entry, is the repeated bias added and the maximum with zero (first layer). -/
theorem hidden1_of (agg : FVec Ideal S100000x128 .f32) (b : FVec Ideal S128 .f32) :
    FirstBias.rowPlusClamped agg (shapeCast S1x128 b shapeCasts_S128_S1x128)
      = maximumf (F := Ideal) (addf (F := Ideal) agg (Cert.ReferenceIdeal.Read.val_main_v42 (F := Ideal) b)) (Cert.ReferenceIdeal.Read.val_main_call1_v0 (F := Ideal)) := by
  funext i
  exact congrArg (fun z : EReal => max (entry (agg i) + z) (entry (Ideal.ofBits .f32 0x00000000#32))) (bias1_at b i)

/-- The same for the second layer. -/
theorem hidden2_of (agg : FVec Ideal S100000x128 .f32) (b : FVec Ideal S128 .f32) :
    SecondBias.rowPlusClamped agg (shapeCast S1x128 b shapeCasts_S128_S1x128)
      = maximumf (F := Ideal) (addf (F := Ideal) agg (Cert.ReferenceIdeal.Read.val_main_v81 (F := Ideal) b)) (Cert.ReferenceIdeal.Read.val_main_call3_v0 (F := Ideal)) := by
  funext i
  exact congrArg (fun z : EReal => max (entry (agg i) + z) (entry (Ideal.ofBits .f32 0x00000000#32))) (bias2_at b i)

/-- The last bias, entry by entry, is the repeated bias added. -/
theorem out_of (agg : FVec Ideal S100000x1 .f32) (b : FVec Ideal S1 .f32) :
    LastBias.rowPlus agg (shapeCast S1x1 b shapeCasts_S1_S1x1) = addf (F := Ideal) agg (Cert.ReferenceIdeal.Read.val_main_v98 (F := Ideal) b) := by
  funext i
  exact congrArg (fun z : EReal => entry (agg i) + z) (bias3_at b i)

/-- Product, bias and clamp on the selected rows is the host product, the repeated bias added, and the maximum with zero. -/
theorem fc_of (rows : FVec Ideal S50000x128 .f32) (wT : FVec Ideal S128x128 .f32) (b : FVec Ideal S128 .f32) :
    SelectedDense.denseClamped rows wT (shapeCast S1x128 b shapeCasts_S128_S1x128)
      = maximumf (F := Ideal) (addf (F := Ideal) (Host.dotGeneral (F := Ideal) Cert.ReferenceIdeal.dot_S50000x128_S128x128_S50000x128_1_0_0_1_n_n none rows wT) (Cert.ReferenceIdeal.Read.val_main_v55 (F := Ideal) b))
          (Cert.ReferenceIdeal.Read.val_main_call2_v0 (F := Ideal)) := by
  funext i
  exact congrArg₂ (fun s z : EReal => max (s + z) (entry (Ideal.ofBits .f32 0x00000000#32)))
    (Cert.RowLaws.host_dot_apply Cert.ReferenceIdeal.dot_S50000x128_S128x128_S50000x128_1_0_0_1_n_n rfl rfl Cert.ReferenceIdeal.Read.lhs_main_v53_0 Cert.ReferenceIdeal.Read.lhs_main_v53_1 Cert.ReferenceIdeal.Read.rhs_main_v53_0 Cert.ReferenceIdeal.Read.rhs_main_v53_1 rows wT i).symm
    (biasFc_at b i)

variable (m : (ℓ : Loc nD τ sig) → Buf (Elt Ideal) ℓ) (ρ : Dev nD → PrngReg) (c : Dev nD)

/-! ## The first graph layer -/

/-- The first region's output: the features against the first weights, the reference's product. -/
theorem proj1_at4 : W4 m ρ c (Proc.devRef .tc main_v27) = Cert.ReferenceIdeal.Read.val_main_v27 (F := Ideal) (m ((c : Thread nD τ).loc main_arg0)) (m ((c : Thread nD τ).loc main_arg4)) := by
  refine (W4_arr m ρ c 2).trans ((InputProjection.value (V3 m ρ) c).trans ?_)
  show InputProjection.rowsTimes (W3 m ρ c (Proc.devRef .tc main_arg0)) (W3 m ρ c (Proc.devRef .tc main_arg4)) = _
  rw [x_at3 m ρ c, w0_at3 m ρ c]
  exact proj1_of _ _

/-- The first message pass: gathered, scaled and scatter-added rows of the product. -/
theorem agg1_at5 : W5 m ρ c (Proc.devRef .tc main_v40) = Cert.ReferenceIdeal.Read.val_main_v40 (F := Ideal) (m ((c : Thread nD τ).loc main_arg0)) (m ((c : Thread nD τ).loc main_arg1)) (m ((c : Thread nD τ).loc main_arg2)) (m ((c : Thread nD τ).loc main_arg4)) := by
  show StableHlo.after hostOps1 (W4 m ρ c) (Proc.devRef .tc main_v40) = _
  after_results_simp
  rw [proj1_at4 m ρ c, src_at4 m ρ c, dst_at4 m ρ c, norm_at4 m ρ c]
  rfl

/-- The first bias as one row. -/
theorem b0row_at5 : W5 m ρ c (Proc.devRef .tc main_v41) = shapeCast S1x128 (m ((c : Thread nD τ).loc main_arg5)) shapeCasts_S128_S1x128 := by
  show StableHlo.after hostOps1 (W4 m ρ c) (Proc.devRef .tc main_v41) = _
  after_results_simp
  rw [b0_at4 m ρ c]
  try rfl

/-- The second region's output: bias and clamp, the reference's first hidden features. -/
theorem hidden1_at6 : W6 m ρ c (Proc.devRef .tc main_v42) = Cert.ReferenceIdeal.Read.val_main_v44 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  refine (W6_arr m ρ c 2).trans ((FirstBias.value (V5 m ρ) c).trans ?_)
  show FirstBias.rowPlusClamped (W5 m ρ c (Proc.devRef .tc main_v40)) (W5 m ρ c (Proc.devRef .tc main_v41)) = _
  rw [agg1_at5 m ρ c, b0row_at5 m ρ c]
  exact hidden1_of _ _

/-! ## The fully connected layer on the selected rows -/

/-- The selected rows of the first hidden features. -/
theorem rows_at7 : W7 m ρ c (Proc.devRef .tc main_v49) = Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W6 m ρ c) (Proc.devRef .tc main_v49) = _
  after_results_simp
  rw [hidden1_at6 m ρ c, idx_at6 m ρ c]
  rfl

/-- The fully connected weights, transposed. -/
theorem fcwT_at7 : W7 m ρ c (Proc.devRef .tc main_v50) = Cert.ReferenceIdeal.Read.val_main_v52 (F := Ideal) (m ((c : Thread nD τ).loc main_arg10)) := by
  show StableHlo.after hostOps2 (W6 m ρ c) (Proc.devRef .tc main_v50) = _
  after_results_simp
  rw [fcw_at6 m ρ c]
  try rfl

/-- The fully connected bias as one row. -/
theorem fcbrow_at7 : W7 m ρ c (Proc.devRef .tc main_v51) = shapeCast S1x128 (m ((c : Thread nD τ).loc main_arg11)) shapeCasts_S128_S1x128 := by
  show StableHlo.after hostOps2 (W6 m ρ c) (Proc.devRef .tc main_v51) = _
  after_results_simp
  rw [fcb_at6 m ρ c]
  try rfl

/-- The third region's output: product, bias and clamp on the selected rows, the reference's. -/
theorem fc_at8 : W8 m ρ c (Proc.devRef .tc main_v52) = Cert.ReferenceIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) := by
  refine (W8_arr m ρ c 3).trans ((SelectedDense.value (V7 m ρ) c).trans ?_)
  show SelectedDense.denseClamped (W7 m ρ c (Proc.devRef .tc main_v49)) (W7 m ρ c (Proc.devRef .tc main_v50)) (W7 m ρ c (Proc.devRef .tc main_v51)) = _
  rw [rows_at7 m ρ c, fcwT_at7 m ρ c, fcbrow_at7 m ρ c]
  exact fc_of _ _ _

/-! ## The second graph layer -/

/-- The fully connected rows scattered back into a zero array. -/
theorem scattered_at9 : W9 m ρ c (Proc.devRef .tc main_v60) = Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) := by
  show StableHlo.after hostOps3 (W8 m ρ c) (Proc.devRef .tc main_v60) = _
  after_results_simp
  rw [fc_at8 m ρ c, idx_at8 m ρ c]
  rfl

/-- The fourth region's output: the scattered features against the second weights. -/
theorem proj2_at10 : W10 m ρ c (Proc.devRef .tc main_v61) = Cert.ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) := by
  refine (W10_arr m ρ c 2).trans ((SecondProjection.value (V9 m ρ) c).trans ?_)
  show SecondProjection.rowsTimes (W9 m ρ c (Proc.devRef .tc main_v60)) (W9 m ρ c (Proc.devRef .tc main_arg6)) = _
  rw [scattered_at9 m ρ c, w1_at9 m ρ c]
  exact proj2_of _ _

/-- The second message pass. -/
theorem agg2_at11 : W11 m ρ c (Proc.devRef .tc main_v74) = Cert.ReferenceIdeal.Read.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) := by
  show StableHlo.after hostOps4 (W10 m ρ c) (Proc.devRef .tc main_v74) = _
  after_results_simp
  rw [proj2_at10 m ρ c, src_at10 m ρ c, dst_at10 m ρ c, norm_at10 m ρ c]
  rfl

/-- The second bias as one row. -/
theorem b1row_at11 : W11 m ρ c (Proc.devRef .tc main_v75) = shapeCast S1x128 (m ((c : Thread nD τ).loc main_arg7)) shapeCasts_S128_S1x128 := by
  show StableHlo.after hostOps4 (W10 m ρ c) (Proc.devRef .tc main_v75) = _
  after_results_simp
  rw [b1_at10 m ρ c]
  try rfl

/-- The fifth region's output: bias and clamp, the reference's second hidden features. -/
theorem hidden2_at12 : W12 m ρ c (Proc.devRef .tc main_v76) = Cert.ReferenceIdeal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) := by
  refine (W12_arr m ρ c 2).trans ((SecondBias.value (V11 m ρ) c).trans ?_)
  show SecondBias.rowPlusClamped (W11 m ρ c (Proc.devRef .tc main_v74)) (W11 m ρ c (Proc.devRef .tc main_v75)) = _
  rw [agg2_at11 m ρ c, b1row_at11 m ρ c]
  exact hidden2_of _ _

/-! ## The last graph layer -/

/-- The sixth region's output: the second hidden features against the last weights. -/
theorem proj3_at13 : W13 m ρ c (Proc.devRef .tc main_v77) = Cert.ReferenceIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11)) := by
  refine (W13_arr m ρ c 2).trans ((LastProjection.value (V12 m ρ) c).trans ?_)
  show LastProjection.rowsTimes (W12 m ρ c (Proc.devRef .tc main_v76)) (W12 m ρ c (Proc.devRef .tc main_arg8)) = _
  rw [hidden2_at12 m ρ c, w2_at12 m ρ c]
  exact proj3_of _ _

/-- The last message pass. -/
theorem agg3_at14 : W14 m ρ c (Proc.devRef .tc main_v89) = Cert.ReferenceIdeal.Read.val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11)) := by
  show StableHlo.after hostOps6 (W13 m ρ c) (Proc.devRef .tc main_v89) = _
  after_results_simp
  rw [proj3_at13 m ρ c, src_at13 m ρ c, dst_at13 m ρ c, norm_at13 m ρ c]
  rfl

/-- The last bias as one row. -/
theorem b2row_at14 : W14 m ρ c (Proc.devRef .tc main_v90) = shapeCast S1x1 (m ((c : Thread nD τ).loc main_arg9)) shapeCasts_S1_S1x1 := by
  show StableHlo.after hostOps6 (W13 m ρ c) (Proc.devRef .tc main_v90) = _
  after_results_simp
  rw [b2_at13 m ρ c]
  try rfl

/-- The seventh region's output: the last bias added, the reference's output column. -/
theorem out_at15 : W15 m ρ c (Proc.devRef .tc main_v91) = Cert.ReferenceIdeal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W15_arr m ρ c 2).trans ((LastBias.value (V14 m ρ) c).trans ?_)
  show LastBias.rowPlus (W14 m ρ c (Proc.devRef .tc main_v89)) (W14 m ρ c (Proc.devRef .tc main_v90)) = _
  rw [agg3_at14 m ρ c, b2row_at14 m ρ c]
  exact out_of _ _

/-- THE RESULT: the output column as a vector — the reference's result of the same arguments. -/
theorem result : W16 m ρ c (Proc.devRef .tc main_v92) = Cert.ReferenceIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps7 (W15 m ρ c) (Proc.devRef .tc main_v92) = _
  after_results_simp
  rw [out_at15 m ρ c]
  rfl

end Cert.KernelIdeal.Stages

end
-- ==== Proof.lean ====
/-
  A three-layer graph convolution on 100000 nodes and 1700000 weighted edges, with a fully connected layer on 50000
  selected rows in the middle: the tiled program against its plain reference.

  Both programs compute, from the edge weights, the degree of every node (a scatter-add over the destinations), its
  inverse square root where positive, and the per-edge factor `dinv[src] · w · dinv[dst]`; then three times a dense layer
  `h · W`, a gather of its rows at the edges' sources, the scaling by the edge factor, a scatter-add into the edges'
  destinations, and a bias; with a clamp at zero after the first two layers, and between them a row gather at the selected
  nodes, a dense layer with bias and clamp against the transposed weights, and a scatter of the result rows into a zero
  array. The tiled program runs seven regions over blocks of 5000 rows — the three products `h · W`, the three bias (and
  clamp) passes, and the fully connected layer — and leaves every gather and scatter to the host, where the reference has
  a host product, a repeated bias row, an addition and a maximum.

  Over the extended reals a block product into a zero accumulator is the exact sum over the shared coordinate, the same sum
  the host product is; the blocks of each region tile its output's rows; and adding a bias and clamping are entry by
  entry. So each region leaves exactly the array the reference's operations leave, every other operation is the same
  operation of the same operands, and the two results are one function of the arguments. Sums and products are never
  rearranged — each is compared with itself — so nothing is asked of the inputs: the finiteness precondition is not used.
  No rewrite was applied to the program when it was idealised, so the idealisation's own claim is empty.
-/
import proofs.«100206_j64836826301092_1_alg».proof.Defs
import proofs.«100206_j64836826301092_1_alg».proof.Proof.Gen.Kernel
import proofs.«100206_j64836826301092_1_alg».proof.Proof.Gen.Kernel.Frame
import proofs.«100206_j64836826301092_1_alg».proof.Proof.Gen.KernelIdeal
import proofs.«100206_j64836826301092_1_alg».proof.Proof.Gen.KernelIdeal.Frame
import proofs.«100206_j64836826301092_1_alg».proof.Proof.Gen.ReferenceIdeal
import proofs.«100206_j64836826301092_1_alg».proof.Proof.Gen.Pre_finite_inputs
import proofs.«100206_j64836826301092_1_alg».proof.Proof.Gen.ReferenceIdeal.Run
import proofs.«100206_j64836826301092_1_alg».proof.Proof.Gen.ReferenceIdeal.Read
import proofs.«100206_j64836826301092_1_alg».proof.Proof.KernelRun
import proofs.«100206_j64836826301092_1_alg».proof.Proof.Stages
import Idealize.ShloMosaic.Adequacy
import Idealize.ShloMosaic.Init

set_option maxRecDepth 16384

noncomputable section

namespace Cert.Proof

open Idealize.ShloMosaic Idealize.SL.Sem

/-- The word-level program runs to the end without a fault and leaves its arguments as launched. -/
theorem runs_bits : Cert.frame_Kernel := fun m ρ _ => Cert.Kernel.Gen.frame m ρ

/-- So does the program read over the extended reals. -/
theorem runs_ideal : Cert.frame_KernelIdeal := fun m ρ _ => Cert.KernelIdeal.Gen.frame m ρ

/-- The reference is a straight line of host operations: its run, with the result forgotten. -/
theorem runs_reference : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem same_program : Cert.preserves_Kernel_KernelIdeal := trivial

/-- From memories that agree on the arguments both programs end with the same result: the reference's last stage of
    the arguments. The tiled program ends there by its run and the boundary-by-boundary reading of its buffers; the
    reference by its own run, its arguments replaced by the tiled program's. -/
theorem same_result : Cert.algebraic_KernelIdeal_ReferenceIdeal := by
  intro m ρ m' ρ' _ hagree
  refine ⟨fun c => Cert.ReferenceIdeal.Read.val_main_v100 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c => ⟨(h c).1.trans (Cert.KernelIdeal.Stages.result m ρ c), (h c).2⟩)
      (Cert.KernelIdeal.RunValue.run_result m ρ)
  · refine (θ_run Cert.ReferenceIdeal.defs _ _).mono (fun r h c => ⟨?_, (h c).2⟩) (Cert.ReferenceIdeal.Value.run (F := Ideal) m' ρ')
    obtain ⟨e0, e1, e2, e3, e4, e5, e6, e7, e8, e9, e10, e11⟩ := hagree c
    rw [(h c).1, Cert.ReferenceIdeal.Read.val_main_v100_eq, e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  runs_bits, runs_ideal, runs_reference, same_program, same_result⟩

end Cert.Proof

end
